-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x3200000 : Shape := ⟨2, ![2, 3200000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S1 .f32) (main_v48 : IVec S_ 1) (main_v49 : FVec F S16x1 .f32) (main_v50 : FVec F S16x1 .f32) : IVec S_ 1 :=
  let main_v51 : IVec S16x1 1 := cmpf .olt main_v49 main_v50
  let main_c_19 : IVec S_ 1 := constantI S_ 1 1#1
  let main_v52 : IVec S_ 1 := (fun x v => Host.reduce IntOp.andi x v reducesTo_S16x1_S_d0_1 h_S_) main_v51 main_c_19
  let main_v53 : IVec S_ 1 := andi main_v48 main_v52
  let main_v54 : FVec F S1 .f32 := Host.absf main_arg12
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg8 : FVec F S32x16 .f32) (main_arg9 : FVec F S32x16 .f32) (main_arg10 : FVec F S16 .f32) (main_arg11 : FVec F S16x1 .f32) (main_arg12 : FVec F S1 .f32) (main_v33 : IVec S_ 1) : IVec S_ 1 :=
  let main_v34 : FVec F S32x16 .f32 := Host.absf main_arg8
  let main_cst_12 : FVec F S_ .f32 := constant S_ .f32 0x7F800000#32
  let main_v35 : FVec F S32x16 .f32 := broadcastInDim S32x16 ![] bcast_S_S32x16 main_cst_12
  let main_v36 : IVec S32x16 1 := cmpf .olt main_v34 main_v35
  let main_c_13 : IVec S_ 1 := constantI S_ 1 1#1
  let main_v37 : IVec S_ 1 := (fun x v => Host.reduce IntOp.andi x v reducesTo_S32x16_S_d0_1 h_S_) main_v36 main_c_13
  let main_v38 : IVec S_ 1 := andi main_v33 main_v37
  let main_v39 : FVec F S32x16 .f32 := Host.absf main_arg9
  let main_cst_14 : FVec F S_ .f32 := constant S_ .f32 0x7F800000#32
  let main_v40 : FVec F S32x16 .f32 := broadcastInDim S32x16 ![] bcast_S_S32x16 main_cst_14
  let main_v41 : IVec S32x16 1 := cmpf .olt main_v39 main_v40
  let main_c_15 : IVec S_ 1 := constantI S_ 1 1#1
  let main_v42 : IVec S_ 1 := (fun x v => Host.reduce IntOp.andi x v reducesTo_S32x16_S_d0_1 h_S_) main_v41 main_c_15
  let main_v43 : IVec S_ 1 := andi main_v38 main_v42
  let main_v44 : FVec F S16 .f32 := Host.absf main_arg10
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  let main_v49 : FVec F S16x1 .f32 := Host.absf main_arg11
  let main_cst_18 : FVec F S_ .f32 := constant S_ .f32 0x7F800000#32
  let main_v50 : FVec F S16x1 .f32 := broadcastInDim S16x1 ![] bcast_S_S16x1 main_cst_18
  fn_part3 (F := F) main_arg12 main_v48 main_v49 main_v50

def fn_part1 {F : FTy → Type} [FloatOps F] (main_arg5 : FVec F S64x32 .f32) (main_arg6 : FVec F S64x32 .f32) (main_arg7 : FVec F S32 .f32) (main_arg8 : FVec F S32x16 .f32) (main_arg9 : FVec F S32x16 .f32) (main_arg10 : FVec F S16 .f32) (main_arg11 : FVec F S16x1 .f32) (main_arg12 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x32 .f32 := Host.absf main_arg5
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S64x32 .f32 := Host.absf main_arg6
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S100000x64 .f32) (main_arg1 : IVec S2x3200000 32) (main_arg2 : FVec F S64x64 .f32) (main_arg3 : FVec F S64x64 .f32) (main_arg4 : FVec F S64 .f32) (main_arg5 : FVec F S64x32 .f32) (main_arg6 : FVec F S64x32 .f32) (main_arg7 : FVec F S32 .f32) (main_arg8 : FVec F S32x16 .f32) (main_arg9 : FVec F S32x16 .f32) (main_arg10 : FVec F S16 .f32) (main_arg11 : FVec F S16x1 .f32) (main_arg12 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_v13 main_v16
-- ==== Kernel.lean ====
abbrev S100000x64 : Shape := ⟨2, ![100000, 64]⟩
abbrev S2x3200000 : Shape := ⟨2, ![2, 3200000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x64 : Shape := ⟨2, ![3200000, 64]⟩
abbrev S100000 : Shape := ⟨1, ![100000]⟩
abbrev S100000x1 : Shape := ⟨2, ![100000, 1]⟩
abbrev S1x64 : Shape := ⟨2, ![1, 64]⟩
abbrev S10000x64 : Shape := ⟨2, ![10000, 64]⟩
abbrev S1x32 : Shape := ⟨2, ![1, 32]⟩
abbrev S100000x32 : Shape := ⟨2, ![100000, 32]⟩
abbrev S10000x32 : Shape := ⟨2, ![10000, 32]⟩
abbrev S3200000x32 : Shape := ⟨2, ![3200000, 32]⟩
abbrev S1x16 : Shape := ⟨2, ![1, 16]⟩
abbrev S100000x16 : Shape := ⟨2, ![100000, 16]⟩
abbrev S10000x16 : Shape := ⟨2, ![10000, 16]⟩
abbrev S1x1 : Shape := ⟨2, ![1, 1]⟩
abbrev S10000x1 : Shape := ⟨2, ![10000, 1]⟩

abbrev nBuf : Space → Nat
  | .hbm => 100
  | .vmem => 33
  | .smem => 0
  | _ => 0

abbrev bufTy : (tb : Table) → Fin (tcTables nBuf tb) → BufTy
  | .hbm, ⟨0, _⟩ => ⟨S100000x64, .f32⟩
  | .hbm, ⟨1, _⟩ => ⟨S2x3200000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64x32, .f32⟩
  | .hbm, ⟨6, _⟩ => ⟨S64x32, .f32⟩
  | .hbm, ⟨7, _⟩ => ⟨S32, .f32⟩
  | .hbm, ⟨8, _⟩ => ⟨S32x16, .f32⟩
  | .hbm, ⟨9, _⟩ => ⟨S32x16, .f32⟩
  | .hbm, ⟨10, _⟩ => ⟨S16, .f32⟩
  | .hbm, ⟨11, _⟩ => ⟨S16x1, .f32⟩
  | .hbm, ⟨12, _⟩ => ⟨S1, .f32⟩
  | .hbm, ⟨13, _⟩ => ⟨S1x3200000, .i32⟩
  | .hbm, ⟨14, _⟩ => ⟨S3200000, .i32⟩
  | .hbm, ⟨15, _⟩ => ⟨S1x3200000, .i32⟩
  | .hbm, ⟨16, _⟩ => ⟨S3200000, .i32⟩
  | .hbm, ⟨17, _⟩ => ⟨S_, .i32⟩
  | .hbm, ⟨18, _⟩ => ⟨S3200000, .i32⟩
  | .hbm, ⟨19, _⟩ => ⟨S3200000, .i1⟩
  | .hbm, ⟨20, _⟩ => ⟨S_, .i32⟩
  | .hbm, ⟨21, _⟩ => ⟨S3200000, .i32⟩
  | .hbm, ⟨22, _⟩ => ⟨S3200000, .i32⟩
  | .hbm, ⟨23, _⟩ => ⟨S3200000, .i32⟩
  | .hbm, ⟨24, _⟩ => ⟨S3200000x1, .i32⟩
  | .hbm, ⟨25, _⟩ => ⟨S3200000x64, .f32⟩
  | .hbm, ⟨26, _⟩ => ⟨S_, .f32⟩
  | .hbm, ⟨27, _⟩ => ⟨S100000x64, .f32⟩
  | .hbm, ⟨28, _⟩ => ⟨S3200000x1, .i32⟩
  | .hbm, ⟨29, _⟩ => ⟨S100000x64, .f32⟩
  | .hbm, ⟨30, _⟩ => ⟨S_, .f32⟩
  | .hbm, ⟨31, _⟩ => ⟨S3200000, .f32⟩
  | .hbm, ⟨32, _⟩ => ⟨S_, .f32⟩
  | .hbm, ⟨33, _⟩ => ⟨S100000, .f32⟩
  | .hbm, ⟨34, _⟩ => ⟨S3200000x1, .i32⟩
  | .hbm, ⟨35, _⟩ => ⟨S100000, .f32⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S100000x1, .f32⟩
  | .hbm, ⟨40, _⟩ => ⟨S100000x64, .f32⟩
  | .hbm, ⟨41, _⟩ => ⟨S100000x64, .f32⟩
  | .hbm, ⟨42, _⟩ => ⟨S1x64, .f32⟩
  | .hbm, ⟨43, _⟩ => ⟨S100000x64, .f32⟩
  | .hbm, ⟨44, _⟩ => ⟨S_, .i32⟩
  | .hbm, ⟨45, _⟩ => ⟨S3200000, .i32⟩
  | .hbm, ⟨46, _⟩ => ⟨S3200000, .i1⟩
  | .hbm, ⟨47, _⟩ => ⟨S_, .i32⟩
  | .hbm, ⟨48, _⟩ => ⟨S3200000, .i32⟩
  | .hbm, ⟨49, _⟩ => ⟨S3200000, .i32⟩
  | .hbm, ⟨50, _⟩ => ⟨S3200000, .i32⟩
  | .hbm, ⟨51, _⟩ => ⟨S3200000x1, .i32⟩
  | .hbm, ⟨52, _⟩ => ⟨S3200000x64, .f32⟩
  | .hbm, ⟨53, _⟩ => ⟨S_, .f32⟩
  | .hbm, ⟨54, _⟩ => ⟨S100000x64, .f32⟩
  | .hbm, ⟨55, _⟩ => ⟨S3200000x1, .i32⟩
  | .hbm, ⟨56, _⟩ => ⟨S100000x64, .f32⟩
  | .hbm, ⟨57, _⟩ => ⟨S_, .f32⟩
  | .hbm, ⟨58, _⟩ => ⟨S3200000, .f32⟩
  | .hbm, ⟨59, _⟩ => ⟨S_, .f32⟩
  | .hbm, ⟨60, _⟩ => ⟨S100000, .f32⟩
  | .hbm, ⟨61, _⟩ => ⟨S3200000x1, .i32⟩
  | .hbm, ⟨62, _⟩ => ⟨S100000, .f32⟩
  | .hbm, ⟨63, _⟩ => ⟨S_, .f32⟩
  | .hbm, ⟨64, _⟩ => ⟨S100000, .f32⟩
  | .hbm, ⟨65, _⟩ => ⟨S100000, .f32⟩
  | .hbm, ⟨66, _⟩ => ⟨S100000x1, .f32⟩
  | .hbm, ⟨67, _⟩ => ⟨S100000x64, .f32⟩
  | .hbm, ⟨68, _⟩ => ⟨S100000x64, .f32⟩
  | .hbm, ⟨69, _⟩ => ⟨S1x32, .f32⟩
  | .hbm, ⟨70, _⟩ => ⟨S100000x32, .f32⟩
  | .hbm, ⟨71, _⟩ => ⟨S_, .i32⟩
  | .hbm, ⟨72, _⟩ => ⟨S3200000, .i32⟩
  | .hbm, ⟨73, _⟩ => ⟨S3200000, .i1⟩
  | .hbm, ⟨74, _⟩ => ⟨S_, .i32⟩
  | .hbm, ⟨75, _⟩ => ⟨S3200000, .i32⟩
  | .hbm, ⟨76, _⟩ => ⟨S3200000, .i32⟩
  | .hbm, ⟨77, _⟩ => ⟨S3200000, .i32⟩
  | .hbm, ⟨78, _⟩ => ⟨S3200000x1, .i32⟩
  | .hbm, ⟨79, _⟩ => ⟨S3200000x32, .f32⟩
  | .hbm, ⟨80, _⟩ => ⟨S_, .f32⟩
  | .hbm, ⟨81, _⟩ => ⟨S100000x32, .f32⟩
  | .hbm, ⟨82, _⟩ => ⟨S3200000x1, .i32⟩
  | .hbm, ⟨83, _⟩ => ⟨S100000x32, .f32⟩
  | .hbm, ⟨84, _⟩ => ⟨S_, .f32⟩
  | .hbm, ⟨85, _⟩ => ⟨S3200000, .f32⟩
  | .hbm, ⟨86, _⟩ => ⟨S_, .f32⟩
  | .hbm, ⟨87, _⟩ => ⟨S100000, .f32⟩
  | .hbm, ⟨88, _⟩ => ⟨S3200000x1, .i32⟩
  | .hbm, ⟨89, _⟩ => ⟨S100000, .f32⟩
  | .hbm, ⟨90, _⟩ => ⟨S_, .f32⟩
  | .hbm, ⟨91, _⟩ => ⟨S100000, .f32⟩
  | .hbm, ⟨92, _⟩ => ⟨S100000, .f32⟩
  | .hbm, ⟨93, _⟩ => ⟨S100000x1, .f32⟩
  | .hbm, ⟨94, _⟩ => ⟨S100000x32, .f32⟩
  | .hbm, ⟨95, _⟩ => ⟨S100000x32, .f32⟩
  | .hbm, ⟨96, _⟩ => ⟨S1x16, .f32⟩
  | .hbm, ⟨97, _⟩ => ⟨S100000x16, .f32⟩
  | .hbm, ⟨98, _⟩ => ⟨S1x1, .f32⟩
  | .hbm, ⟨99, _⟩ => ⟨S100000x1, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x32, .f32⟩
  | .local _ .vmem, ⟨14, _⟩ => ⟨S64x32, .f32⟩
  | .local _ .vmem, ⟨15, _⟩ => ⟨S1x32, .f32⟩
  | .local _ .vmem, ⟨16, _⟩ => ⟨S10000x32, .f32⟩
  | .local _ .vmem, ⟨17, _⟩ => ⟨S10000x32, .f32⟩
  | .local _ .vmem, ⟨18, _⟩ => ⟨S10000x32, .f32⟩
  | .local _ .vmem, ⟨19, _⟩ => ⟨S10000x32, .f32⟩
  | .local _ .vmem, ⟨20, _⟩ => ⟨S10000x32, .f32⟩
  | .local _ .vmem, ⟨21, _⟩ => ⟨S10000x32, .f32⟩
  | .local _ .vmem, ⟨22, _⟩ => ⟨S32x16, .f32⟩
  | .local _ .vmem, ⟨23, _⟩ => ⟨S32x16, .f32⟩
  | .local _ .vmem, ⟨24, _⟩ => ⟨S1x16, .f32⟩
  | .local _ .vmem, ⟨25, _⟩ => ⟨S10000x16, .f32⟩
  | .local _ .vmem, ⟨26, _⟩ => ⟨S10000x16, .f32⟩
  | .local _ .vmem, ⟨27, _⟩ => ⟨S10000x16, .f32⟩
  | .local _ .vmem, ⟨28, _⟩ => ⟨S10000x16, .f32⟩
  | .local _ .vmem, ⟨29, _⟩ => ⟨S16x1, .f32⟩
  | .local _ .vmem, ⟨30, _⟩ => ⟨S1x1, .f32⟩
  | .local _ .vmem, ⟨31, _⟩ => ⟨S10000x1, .f32⟩
  | .local _ .vmem, ⟨32, _⟩ => ⟨S10000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_4 : Ref sig .tc := ⟨.hbm, 44, rfl⟩
abbrev main_v25 : Ref sig .tc := ⟨.hbm, 45, rfl⟩
abbrev main_v26 : Ref sig .tc := ⟨.hbm, 46, rfl⟩
abbrev main_c_5 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_6 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_7 : Ref sig .tc := ⟨.hbm, 57, rfl⟩
abbrev main_v35 : Ref sig .tc := ⟨.hbm, 58, rfl⟩
abbrev main_cst_8 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_9 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_c_10 : Ref sig .tc := ⟨.hbm, 71, rfl⟩
abbrev main_v46 : Ref sig .tc := ⟨.hbm, 72, rfl⟩
abbrev main_v47 : Ref sig .tc := ⟨.hbm, 73, rfl⟩
abbrev main_c_11 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_12 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_13 : Ref sig .tc := ⟨.hbm, 84, rfl⟩
abbrev main_v56 : Ref sig .tc := ⟨.hbm, 85, rfl⟩
abbrev main_cst_14 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_15 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg3_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem3_0 : DmaSem sig := 31
abbrev cc3_sem3_1 : DmaSem sig := 32

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S32x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S32x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x16 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S16x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  shapeCasts_S32_S1x32 : S32.ShapeCasts S1x32
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  shapeCasts_S16_S1x16 : S16.ShapeCasts S1x16
  shapeCasts_S10000x32_S10000x32 : S10000x32.ShapeCasts S10000x32
  inb_S32x16_S32x16_0_0 : ∀ a, (![0, 0] : Fin 2 → Nat) a + S32x16.size a ≤ S32x16.size a
  h_S32x16 : 0 < S32x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S10000x16_S10000x16_0_0 : ∀ a, (![0, 0] : Fin 2 → Nat) a + S10000x16.size a ≤ S10000x16.size a
  h_S10000x16 : 0 < S10000x16.numel
  shapeCasts_S1_S1x1 : S1.ShapeCasts S1x1
  shapeCasts_S10000x16_S10000x16 : S10000x16.ShapeCasts S10000x16
  inb_S16x1_S16x1_0_0 : ∀ a, (![0, 0] : Fin 2 → Nat) a + S16x1.size a ≤ S16x1.size a
  h_S16x1 : 0 < S16x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  scatter_S100000_S3200000x1_S3200000_n_0_0_1_wf : ScatterDims.WF S100000 S3200000x1 S3200000 [] [0] [0] 1
  dot_S10000x64_S64x64_S10000x64_1_0_0_1_n_n_wf : DotDims.WF S10000x64 S64x64 S10000x64 [1] [0] [0] [1] [] []
  dot_S10000x64_S64x32_S10000x32_1_0_0_1_n_n_wf : DotDims.WF S10000x64 S64x32 S10000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S10000x32_S32x16_S10000x16_1_0_0_1_n_n_wf : DotDims.WF S10000x32 S32x16 S10000x16 [1] [0] [0] [1] [] []
  dot_S10000x16_S16x1_S10000x1_1_0_0_1_n_n_wf : DotDims.WF S10000x16 S16x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S64x32.size a
  hwx1_2 : ∀ i : grid1.Coords, EltTy.bits .f32 = 32 ∨ (Rect.block (s := S64x32) S64x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x32.size a ≤ S64x32.size a
  hwx1_3 : ∀ i : grid1.Coords, EltTy.bits .f32 = 32 ∨ (Rect.block (s := S64x32) S64x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x32.size a ≤ S100000x32.size a
  hwx1_5 : ∀ i : grid1.Coords, EltTy.bits .f32 = 32 ∨ (Rect.block (s := S100000x32) S10000x32.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S100000x32.size a
  hwx2_0 : ∀ i : grid2.Coords, EltTy.bits .f32 = 32 ∨ (Rect.block (s := S100000x32) S10000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x32.size a ≤ S100000x32.size a
  hwx2_1 : ∀ i : grid2.Coords, EltTy.bits .f32 = 32 ∨ (Rect.block (s := S100000x32) S10000x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x16.size a ≤ S32x16.size a
  hwx2_2 : ∀ i : grid2.Coords, EltTy.bits .f32 = 32 ∨ (Rect.block (s := S32x16) S32x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x16.size a ≤ S32x16.size a
  hwx2_3 : ∀ i : grid2.Coords, EltTy.bits .f32 = 32 ∨ (Rect.block (s := S32x16) S32x16.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x16.size a ≤ S1x16.size a
  hwx2_4 : ∀ i : grid2.Coords, EltTy.bits .f32 = 32 ∨ (Rect.block (s := S1x16) S1x16.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x16.size a ≤ S100000x16.size a
  hwx2_5 : ∀ i : grid2.Coords, EltTy.bits .f32 = 32 ∨ (Rect.block (s := S100000x16) S10000x16.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x16.size a ≤ S100000x16.size a
  hwx3_0 : ∀ i : grid3.Coords, EltTy.bits .f32 = 32 ∨ (Rect.block (s := S100000x16) S10000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S16x1.size a ≤ S16x1.size a
  hwx3_1 : ∀ i : grid3.Coords, EltTy.bits .f32 = 32 ∨ (Rect.block (s := S16x1) S16x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1.size a ≤ S1x1.size a
  hwx3_2 : ∀ i : grid3.Coords, EltTy.bits .f32 = 32 ∨ (Rect.block (s := S1x1) S1x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x1.size a ≤ S100000x1.size a
  hwx3_3 : ∀ i : grid3.Coords, EltTy.bits .f32 = 32 ∨ (Rect.block (s := S100000x1) S10000x1.size (cc3_transform_3 i) (hinb3_3 i)).WholeWords (EltTy.packing .f32)

variable [Facts₀]

def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf
def dot_S10000x16_S16x1_S10000x1_1_0_0_1_n_n : DotDims S10000x16 S16x1 S10000x1 where
  lhsContracting := [1]
  rhsContracting := [0]
  lhsNonContracting := [0]
  rhsNonContracting := [1]
  lhsBatch := []
  rhsBatch := []
  wf := dot_S10000x16_S16x1_S10000x1_1_0_0_1_n_n_wf

abbrev win0_0 : Pipeline.Window sig grid0 :=
  Pipeline.Window.ofSpec (Memref.whole main_v22) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S10000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v64) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S10000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S32x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S32x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v65) S1x16.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v66) S10000x16.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v66) S10000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg11) S16x1.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v67) S1x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v68) S10000x1.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x3200000 : Shape := ⟨2, ![2, 3200000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x64 : Shape := ⟨2, ![3200000, 64]⟩
abbrev S100000 : Shape := ⟨1, ![100000]⟩
abbrev S100000x1 : Shape := ⟨2, ![100000, 1]⟩
abbrev S1x64 : Shape := ⟨2, ![1, 64]⟩
abbrev S100000x32 : Shape := ⟨2, ![100000, 32]⟩
abbrev S1x32 : Shape := ⟨2, ![1, 32]⟩
abbrev S3200000x32 : Shape := ⟨2, ![3200000, 32]⟩
abbrev S100000x16 : Shape := ⟨2, ![100000, 16]⟩
abbrev S1x16 : Shape := ⟨2, ![1, 16]⟩
abbrev S1x1 : Shape := ⟨2, ![1, 1]⟩

abbrev nBuf : Space → Nat
  | .hbm => 123
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x3200000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64x32, .f32⟩
  | .hbm, ⟨6, _⟩ => ⟨S64x32, .f32⟩
  | .hbm, ⟨7, _⟩ => ⟨S32, .f32⟩
  | .hbm, ⟨8, _⟩ => ⟨S32x16, .f32⟩
  | .hbm, ⟨9, _⟩ => ⟨S32x16, .f32⟩
  | .hbm, ⟨10, _⟩ => ⟨S16, .f32⟩
  | .hbm, ⟨11, _⟩ => ⟨S16x1, .f32⟩
  | .hbm, ⟨12, _⟩ => ⟨S1, .f32⟩
  | .hbm, ⟨13, _⟩ => ⟨S1x3200000, .i32⟩
  | .hbm, ⟨14, _⟩ => ⟨S3200000, .i32⟩
  | .hbm, ⟨15, _⟩ => ⟨S1x3200000, .i32⟩
  | .hbm, ⟨16, _⟩ => ⟨S3200000, .i32⟩
  | .hbm, ⟨17, _⟩ => ⟨S_, .i32⟩
  | .hbm, ⟨18, _⟩ => ⟨S3200000, .i32⟩
  | .hbm, ⟨19, _⟩ => ⟨S3200000, .i1⟩
  | .hbm, ⟨20, _⟩ => ⟨S_, .i32⟩
  | .hbm, ⟨21, _⟩ => ⟨S3200000, .i32⟩
  | .hbm, ⟨22, _⟩ => ⟨S3200000, .i32⟩
  | .hbm, ⟨23, _⟩ => ⟨S3200000, .i32⟩
  | .hbm, ⟨24, _⟩ => ⟨S3200000x1, .i32⟩
  | .hbm, ⟨25, _⟩ => ⟨S3200000x64, .f32⟩
  | .hbm, ⟨26, _⟩ => ⟨S_, .f32⟩
  | .hbm, ⟨27, _⟩ => ⟨S100000x64, .f32⟩
  | .hbm, ⟨28, _⟩ => ⟨S3200000x1, .i32⟩
  | .hbm, ⟨29, _⟩ => ⟨S100000x64, .f32⟩
  | .hbm, ⟨30, _⟩ => ⟨S_, .f32⟩
  | .hbm, ⟨31, _⟩ => ⟨S3200000, .f32⟩
  | .hbm, ⟨32, _⟩ => ⟨S_, .f32⟩
  | .hbm, ⟨33, _⟩ => ⟨S100000, .f32⟩
  | .hbm, ⟨34, _⟩ => ⟨S3200000x1, .i32⟩
  | .hbm, ⟨35, _⟩ => ⟨S100000, .f32⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S100000x1, .f32⟩
  | .hbm, ⟨40, _⟩ => ⟨S100000x64, .f32⟩
  | .hbm, ⟨41, _⟩ => ⟨S100000x64, .f32⟩
  | .hbm, ⟨42, _⟩ => ⟨S100000x64, .f32⟩
  | .hbm, ⟨43, _⟩ => ⟨S100000x64, .f32⟩
  | .hbm, ⟨44, _⟩ => ⟨S100000x64, .f32⟩
  | .hbm, ⟨45, _⟩ => ⟨S1x64, .f32⟩
  | .hbm, ⟨46, _⟩ => ⟨S100000x64, .f32⟩
  | .hbm, ⟨47, _⟩ => ⟨S100000x64, .f32⟩
  | .hbm, ⟨48, _⟩ => ⟨S_, .f32⟩
  | .hbm, ⟨49, _⟩ => ⟨S100000x64, .f32⟩
  | .hbm, ⟨50, _⟩ => ⟨S100000x64, .f32⟩
  | .hbm, ⟨51, _⟩ => ⟨S_, .i32⟩
  | .hbm, ⟨52, _⟩ => ⟨S3200000, .i32⟩
  | .hbm, ⟨53, _⟩ => ⟨S3200000, .i1⟩
  | .hbm, ⟨54, _⟩ => ⟨S_, .i32⟩
  | .hbm, ⟨55, _⟩ => ⟨S3200000, .i32⟩
  | .hbm, ⟨56, _⟩ => ⟨S3200000, .i32⟩
  | .hbm, ⟨57, _⟩ => ⟨S3200000, .i32⟩
  | .hbm, ⟨58, _⟩ => ⟨S3200000x1, .i32⟩
  | .hbm, ⟨59, _⟩ => ⟨S3200000x64, .f32⟩
  | .hbm, ⟨60, _⟩ => ⟨S_, .f32⟩
  | .hbm, ⟨61, _⟩ => ⟨S100000x64, .f32⟩
  | .hbm, ⟨62, _⟩ => ⟨S3200000x1, .i32⟩
  | .hbm, ⟨63, _⟩ => ⟨S100000x64, .f32⟩
  | .hbm, ⟨64, _⟩ => ⟨S_, .f32⟩
  | .hbm, ⟨65, _⟩ => ⟨S3200000, .f32⟩
  | .hbm, ⟨66, _⟩ => ⟨S_, .f32⟩
  | .hbm, ⟨67, _⟩ => ⟨S100000, .f32⟩
  | .hbm, ⟨68, _⟩ => ⟨S3200000x1, .i32⟩
  | .hbm, ⟨69, _⟩ => ⟨S100000, .f32⟩
  | .hbm, ⟨70, _⟩ => ⟨S_, .f32⟩
  | .hbm, ⟨71, _⟩ => ⟨S100000, .f32⟩
  | .hbm, ⟨72, _⟩ => ⟨S100000, .f32⟩
  | .hbm, ⟨73, _⟩ => ⟨S100000x1, .f32⟩
  | .hbm, ⟨74, _⟩ => ⟨S100000x64, .f32⟩
  | .hbm, ⟨75, _⟩ => ⟨S100000x64, .f32⟩
  | .hbm, ⟨76, _⟩ => ⟨S100000x32, .f32⟩
  | .hbm, ⟨77, _⟩ => ⟨S100000x32, .f32⟩
  | .hbm, ⟨78, _⟩ => ⟨S100000x32, .f32⟩
  | .hbm, ⟨79, _⟩ => ⟨S1x32, .f32⟩
  | .hbm, ⟨80, _⟩ => ⟨S100000x32, .f32⟩
  | .hbm, ⟨81, _⟩ => ⟨S100000x32, .f32⟩
  | .hbm, ⟨82, _⟩ => ⟨S_, .f32⟩
  | .hbm, ⟨83, _⟩ => ⟨S100000x32, .f32⟩
  | .hbm, ⟨84, _⟩ => ⟨S100000x32, .f32⟩
  | .hbm, ⟨85, _⟩ => ⟨S_, .i32⟩
  | .hbm, ⟨86, _⟩ => ⟨S3200000, .i32⟩
  | .hbm, ⟨87, _⟩ => ⟨S3200000, .i1⟩
  | .hbm, ⟨88, _⟩ => ⟨S_, .i32⟩
  | .hbm, ⟨89, _⟩ => ⟨S3200000, .i32⟩
  | .hbm, ⟨90, _⟩ => ⟨S3200000, .i32⟩
  | .hbm, ⟨91, _⟩ => ⟨S3200000, .i32⟩
  | .hbm, ⟨92, _⟩ => ⟨S3200000x1, .i32⟩
  | .hbm, ⟨93, _⟩ => ⟨S3200000x32, .f32⟩
  | .hbm, ⟨94, _⟩ => ⟨S_, .f32⟩
  | .hbm, ⟨95, _⟩ => ⟨S100000x32, .f32⟩
  | .hbm, ⟨96, _⟩ => ⟨S3200000x1, .i32⟩
  | .hbm, ⟨97, _⟩ => ⟨S100000x32, .f32⟩
  | .hbm, ⟨98, _⟩ => ⟨S_, .f32⟩
  | .hbm, ⟨99, _⟩ => ⟨S3200000, .f32⟩
  | .hbm, ⟨100, _⟩ => ⟨S_, .f32⟩
  | .hbm, ⟨101, _⟩ => ⟨S100000, .f32⟩
  | .hbm, ⟨102, _⟩ => ⟨S3200000x1, .i32⟩
  | .hbm, ⟨103, _⟩ => ⟨S100000, .f32⟩
  | .hbm, ⟨104, _⟩ => ⟨S_, .f32⟩
  | .hbm, ⟨105, _⟩ => ⟨S100000, .f32⟩
  | .hbm, ⟨106, _⟩ => ⟨S100000, .f32⟩
  | .hbm, ⟨107, _⟩ => ⟨S100000x1, .f32⟩
  | .hbm, ⟨108, _⟩ => ⟨S100000x32, .f32⟩
  | .hbm, ⟨109, _⟩ => ⟨S100000x32, .f32⟩
  | .hbm, ⟨110, _⟩ => ⟨S100000x16, .f32⟩
  | .hbm, ⟨111, _⟩ => ⟨S100000x16, .f32⟩
  | .hbm, ⟨112, _⟩ => ⟨S100000x16, .f32⟩
  | .hbm, ⟨113, _⟩ => ⟨S1x16, .f32⟩
  | .hbm, ⟨114, _⟩ => ⟨S100000x16, .f32⟩
  | .hbm, ⟨115, _⟩ => ⟨S100000x16, .f32⟩
  | .hbm, ⟨116, _⟩ => ⟨S_, .f32⟩
  | .hbm, ⟨117, _⟩ => ⟨S100000x16, .f32⟩
  | .hbm, ⟨118, _⟩ => ⟨S100000x16, .f32⟩
  | .hbm, ⟨119, _⟩ => ⟨S100000x1, .f32⟩
  | .hbm, ⟨120, _⟩ => ⟨S1x1, .f32⟩
  | .hbm, ⟨121, _⟩ => ⟨S100000x1, .f32⟩
  | .hbm, ⟨122, _⟩ => ⟨S100000x1, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_call0_cst : Ref sig .tc := ⟨.hbm, 48, rfl⟩
abbrev main_call0_v0 : Ref sig .tc := ⟨.hbm, 49, rfl⟩
abbrev main_v29 : Ref sig .tc := ⟨.hbm, 50, rfl⟩
abbrev main_c_4 : Ref sig .tc := ⟨.hbm, 51, rfl⟩
abbrev main_v30 : Ref sig .tc := ⟨.hbm, 52, rfl⟩
abbrev main_v31 : Ref sig .tc := ⟨.hbm, 53, rfl⟩
abbrev main_c_5 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_6 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_7 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_9 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_call1_cst : Ref sig .tc := ⟨.hbm, 82, rfl⟩
abbrev main_call1_v0 : Ref sig .tc := ⟨.hbm, 83, rfl⟩
abbrev main_v55 : Ref sig .tc := ⟨.hbm, 84, rfl⟩
abbrev main_c_10 : Ref sig .tc := ⟨.hbm, 85, rfl⟩
abbrev main_v56 : Ref sig .tc := ⟨.hbm, 86, rfl⟩
abbrev main_v57 : Ref sig .tc := ⟨.hbm, 87, rfl⟩
abbrev main_c_11 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_12 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_13 : Ref sig .tc := ⟨.hbm, 98, rfl⟩
abbrev main_v66 : Ref sig .tc := ⟨.hbm, 99, rfl⟩
abbrev main_cst_14 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_15 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_call2_cst : Ref sig .tc := ⟨.hbm, 116, rfl⟩
abbrev main_call2_v0 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  scatter_S100000_S3200000x1_S3200000_n_0_0_1_wf : ScatterDims.WF S100000 S3200000x1 S3200000 [] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S100000x32_S32x16_S100000x16_1_0_0_1_n_n_wf : DotDims.WF S100000x32 S32x16 S100000x16 [1] [0] [0] [1] [] []
  dot_S100000x16_S16x1_S100000x1_1_0_0_1_n_n_wf : DotDims.WF S100000x16 S16x1 S100000x1 [1] [0] [0] [1] [] []

variable [Facts₀]

def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def dot_S100000x16_S16x1_S100000x1_1_0_0_1_n_n : DotDims S100000x16 S16x1 S100000x1 where
  lhsContracting := [1]
  rhsContracting := [0]
  lhsNonContracting := [0]
  rhsNonContracting := [1]
  lhsBatch := []
  rhsBatch := []
  wf := dot_S100000x16_S16x1_S100000x1_1_0_0_1_n_n_wf

class Facts : Prop extends Facts₀ where

variable [Facts]
-- ==== Proof.NamedRun.lean ====
/-
  THE KERNEL'S RUN, WITH ITS RESULT NAMED.

  The program is four kernel regions among stretches of host operations. The buffers' contents at each boundary are a fold
  through the program (the generated W0 … W8: a host stretch applies its operations, a region replaces its arrays by what
  its write-backs leave). Every weakly fair execution terminates with every unscoped buffer at the last boundary's contents
  W8; the frame keeps of that only the arguments, and here the result buffer is kept too: it ends at W8's value there.
-/
import proofs.«157100_j89876485636273_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch's ghost state, dealt: the cells' initial element owned, nothing else set aside per core. -/
theorem launch_ghost :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- At the end every unscoped buffer can be read against the final state: it holds the last boundary's contents. -/
theorem read_final (c : Dev nD) (s' : Phys nD τ sig (Elt F)) :
    iprop(Tₙ m ρ c ∗ SI s') ⊢ |={Set.univ}=> iprop(⌜∀ b ∈ Pipeline.ucRefs τ sig, s'.mem.mem (((c : Thread nD τ)).1, b) = W8 m ρ c b⌝ ∗ SI s') := by
  iintro ⟨⟨Hh, -⟩, HSI⟩
  unfold StableHlo.held
  imodintro
  iapply (pointsTo_read_all (Pipeline.ucRefs τ sig) (fun b => (((c : Thread nD τ)).1, b)) (W8 m ρ c) s')
  isplitl [Hh] <;> iassumption

set_option backward.isDefEq.respectTransparency.types false in
/-- THE RUN: from any memory with zero counters every weakly fair execution of the program terminates, nothing faulting,
    with the result buffer at the last boundary's contents and every argument as launched. -/
theorem run : θ_run defs (onTc (τ := τ) (main (F := F))) ⟨m, fun _ => 0, ρ⟩ (fun r => ∀ c : Dev nD,
      r.2.mem ((c.tc : Thread nD τ).loc main_v68) = W8 m ρ c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := launch_ghost)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => read_final m ρ c s')
    (hQ := fun s h c =>
      ⟨h c _ (mem_uc main_v68 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c)⟩)

end Cert.KernelIdeal.Named

end
-- ==== Proof.LibPlainDot.lean ====
/-
  A PLAIN MATRIX PRODUCT'S CONTRACTION, RE-INDEXED.

  A dot of a matrix [M, K] with a matrix [K, N] that contracts the first one's columns against the second one's rows,
  with no batch axis — whatever the record that says so — sums, at result index (p, n), over a contraction index
  that is one coordinate `k < K`; the two operand indices there are (p, k) and (k, n). So a sum over the record's
  contraction indices is the sum over `k : Fin K` of the same summand at those two indices.
-/
import Idealize.ShloMosaic.PureOps.Ideal.Laws
import Idealize.ShloMosaic.Lib.ValueIdx

noncomputable section

open scoped BigOperators

namespace Cert.Lib

open Idealize.ShloMosaic Idealize.ShloMosaic.ValueIdx

variable {M K N : Nat} (d : DotDims ⟨2, ![M, K]⟩ ⟨2, ![K, N]⟩ ⟨2, ![M, N]⟩)

/-- The left operand's row coordinate is the result's row. -/
theorem lhsIdx_row (hln : d.lhsNonContracting = [0]) (hlb : d.lhsBatch = [])
    (j : (⟨2, ![M, N]⟩ : Shape).Idx) (k : d.contr.Idx) : (d.lhsIdx j k (0 : Fin 2)).val = (j (0 : Fin 2)).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (a b : Nat) (ha : a < 2) (hb : b < 2), a = b → (j ⟨a, ha⟩).val = (j ⟨b, hb⟩).val := by
    intro a b ha hb e; subst e; rfl
  exact key _ _ _ _ (by rw [hlb, hln]; rfl)

/-- The right operand's column coordinate is the result's column. -/
theorem rhsIdx_col (hln : d.lhsNonContracting = [0]) (hrn : d.rhsNonContracting = [1]) (hlb : d.lhsBatch = [])
    (hrb : d.rhsBatch = []) (j : (⟨2, ![M, N]⟩ : Shape).Idx) (k : d.contr.Idx) :
    (d.rhsIdx j k (1 : Fin 2)).val = (j (1 : Fin 2)).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (a b : Nat) (ha : a < 2) (hb : b < 2), a = b → (j ⟨a, ha⟩).val = (j ⟨b, hb⟩).val := by
    intro a b ha hb e; subst e; rfl
  exact key _ _ _ _ (by rw [hlb, hln, hrn]; rfl)

/-- The contraction has one axis … -/
theorem contr_rank (hl : d.lhsContracting = [1]) : d.contr.rank = 1 := by rw [d.rank_contr, hl]; rfl

/-- … of extent `K`. -/
theorem contr_size (hl : d.lhsContracting = [1]) :
    d.contr.size ⟨0, by rw [contr_rank d hl]; exact Nat.one_pos⟩ = K := by
  have h0 : (0 : Nat) < d.lhsContracting.length := by rw [hl]; exact Nat.one_pos
  refine (d.size_contr 0 h0).trans ?_
  rw [List.getElem_of_eq hl h0]
  rfl

/-- THE SUM over a plain product's contraction indices is the sum over `k : Fin K`, the operands read at (p, k) and
    (k, n). Stated for any summand `f` of the two operand indices, so that it serves a kernel's `tpu.matmul`
    (Ideal.matmul_constant_zero_apply) and a host `dot_general` (Ideal.dotGeneral_apply) alike. -/
theorem sum_contr_plain {α : Type*} [AddCommMonoid α] (hl : d.lhsContracting = [1]) (hr : d.rhsContracting = [0])
    (hln : d.lhsNonContracting = [0]) (hrn : d.rhsNonContracting = [1]) (hlb : d.lhsBatch = []) (hrb : d.rhsBatch = [])
    (f : (⟨2, ![M, K]⟩ : Shape).Idx → (⟨2, ![K, N]⟩ : Shape).Idx → α) (p : Fin M) (n : Fin N) :
    ∑ k : d.contr.Idx, f (d.lhsIdx (ix2 p n) k) (d.rhsIdx (ix2 p n) k) = ∑ k : Fin K, f (ix2 p k) (ix2 k n) := by
  have hrk := contr_rank d hl
  have hs := contr_size d hl
  rw [← Equiv.sum_comp (contrEquiv1 d K hrk hs).symm]
  refine Finset.sum_congr rfl fun k _ => ?_
  have e1 : d.lhsIdx (ix2 p n) ((contrEquiv1 d K hrk hs).symm k) = ix2 p k := by
    funext a; apply Fin.ext
    match a with
    | ⟨0, _⟩ => exact lhsIdx_row d hln hlb _ _
    | ⟨1, _⟩ => exact (d.lhsIdx_val_of_single hl _ _).trans (contrEquiv1_symm_val d K hrk hs k)
  have e2 : d.rhsIdx (ix2 p n) ((contrEquiv1 d K hrk hs).symm k) = ix2 k n := by
    funext a; apply Fin.ext
    match a with
    | ⟨0, _⟩ => exact (d.rhsIdx_val_of_single hr _ _).trans (contrEquiv1_symm_val d K hrk hs k)
    | ⟨1, _⟩ => exact rhsIdx_col d hln hrn hlb hrb _ _
  rw [e1, e2]

end Cert.Lib

end
-- ==== Proof.LibRowReads.lean ====
/-
  READING A MATRIX PRODUCT AND A BROADCAST ROW AT AN ELEMENT.

  Two facts about [M, K] × [K, N] products with no batch axis, over the extended reals: a kernel's product into a zero
  accumulator, and a host program's dot, are both, at (r, q), the sum over k < K of left(r, k) · right(k, q) — for any
  record describing such a product. And three facts about a row vector: a [1, b] row re-laid as [b] and back as [1, b]
  and then repeated down a rows has, at (r, c), the row's entry c; the same for a [b] vector made a row and repeated;
  and a [1, b] row re-laid as [b] has, at c, the row's entry c. The host program's spellings of the same things are
  read too: a [b] vector broadcast to a [1, b] row and then down M rows; row o (slab o) of a stacked [n, b] ([n, a, b])
  parameter sliced out and re-laid as a vector (a matrix); the first k rows (slabs) of a stacked parameter; a scalar
  constant broadcast to any shape. Everything is generic in the sizes.
-/
import Idealize.ShloMosaic.PureOps.Ideal.Laws
import Idealize.ShloMosaic.Lib.ValueIdx
import Idealize.ShloMosaic.Lib.ValueLayout
import Idealize.ShloMosaic.Lib.KernelVsHost
import Idealize.ShloMosaic.Lib.IdealHost
import proofs.«157100_j89876485636273_1_alg».proof.Proof.LibPlainDot

noncomputable section

open scoped BigOperators

namespace Cert.Lib

open Idealize.ShloMosaic Idealize.ShloMosaic.ValueIdx

section Products

variable {M K N : Nat} (d : DotDims ⟨2, ![M, K]⟩ ⟨2, ![K, N]⟩ ⟨2, ![M, N]⟩)

/-- A kernel's matrix product into a zero accumulator, at (r, q): row r of the left operand against column q of the
    right one. -/
theorem matmul_zero_at (hl : d.lhsContracting = [1]) (hr : d.rhsContracting = [0])
    (hln : d.lhsNonContracting = [0]) (hrn : d.rhsNonContracting = [1]) (hlb : d.lhsBatch = []) (hrb : d.rhsBatch = [])
    {φ₁ φ₂ : FTy} (prec : Option ContractPrecision) (a : FVec Ideal ⟨2, ![M, K]⟩ φ₁) (b : FVec Ideal ⟨2, ![K, N]⟩ φ₂)
    (r : Fin M) (q : Fin N) :
    matmul d prec a b (constant (F := Ideal) ⟨2, ![M, N]⟩ .f32 0x00000000#32) (ix2 r q)
      = ∑ p : Fin K, a (ix2 r p) * b (ix2 p q) :=
  (Ideal.matmul_constant_zero_apply d prec a b (ix2 r q)).trans
    (sum_contr_plain d hl hr hln hrn hlb hrb (fun i j => a i * b j) r q)

/-- A host program's dot, at (r, q): the same sum. -/
theorem dotGeneral_at (hl : d.lhsContracting = [1]) (hr : d.rhsContracting = [0])
    (hln : d.lhsNonContracting = [0]) (hrn : d.rhsNonContracting = [1]) (hlb : d.lhsBatch = []) (hrb : d.rhsBatch = [])
    {φ₁ φ₂ : FTy} (prec : Option ContractPrecision) (a : FVec Ideal ⟨2, ![M, K]⟩ φ₁) (b : FVec Ideal ⟨2, ![K, N]⟩ φ₂)
    (r : Fin M) (q : Fin N) :
    Host.dotGeneral d prec a b (ix2 r q) = ∑ p : Fin K, a (ix2 r p) * b (ix2 p q) :=
  (Ideal.dotGeneral_apply d prec .single a b (ix2 r q)).trans
    (sum_contr_plain d hl hr hln hrn hlb hrb (fun i j => a i * b j) r q)

end Products

section Rows

variable {α : Type}

/-- A [1, b] row re-laid as [b], back as [1, b], and repeated down a rows: at (r, c), the row's entry c. -/
theorem bcast_row_apply {a b : Nat} (v : (⟨2, ![1, b]⟩ : Shape).Idx → α)
    (h1 : (⟨2, ![1, b]⟩ : Shape).ShapeCasts ⟨1, ![b]⟩) (h2 : (⟨1, ![b]⟩ : Shape).ShapeCasts ⟨2, ![1, b]⟩)
    (h3 : (⟨2, ![1, b]⟩ : Shape).Broadcasts ⟨2, ![a, b]⟩) (r : Fin a) (c : Fin b) :
    broadcastTo ⟨2, ![a, b]⟩ (shapeCast ⟨2, ![1, b]⟩ (shapeCast ⟨1, ![b]⟩ v h1) h2) h3 (ix2 r c) = v (ix2 (0 : Fin 1) c) := by
  rw [broadcastTo_1b_ab_apply, shapeCast_a_1a_apply, shapeCast_1a_a_apply]

/-- A [b] vector made a [1, b] row and repeated down a rows: at (r, c), the vector's entry c. -/
theorem bcast_vec_apply {a b : Nat} (v : (⟨1, ![b]⟩ : Shape).Idx → α)
    (h2 : (⟨1, ![b]⟩ : Shape).ShapeCasts ⟨2, ![1, b]⟩) (h3 : (⟨2, ![1, b]⟩ : Shape).Broadcasts ⟨2, ![a, b]⟩)
    (r : Fin a) (c : Fin b) :
    broadcastTo ⟨2, ![a, b]⟩ (shapeCast ⟨2, ![1, b]⟩ v h2) h3 (ix2 r c) = v (ix1 c) := by
  rw [broadcastTo_1b_ab_apply, shapeCast_a_1a_apply]

/-- A [1, b] row re-laid as [b] and back as [1, b]: at (0, c), the row's entry c. -/
theorem row_relaid_apply {b : Nat} (v : (⟨2, ![1, b]⟩ : Shape).Idx → α)
    (h1 : (⟨2, ![1, b]⟩ : Shape).ShapeCasts ⟨1, ![b]⟩) (h2 : (⟨1, ![b]⟩ : Shape).ShapeCasts ⟨2, ![1, b]⟩) (c : Fin b) :
    shapeCast ⟨2, ![1, b]⟩ (shapeCast ⟨1, ![b]⟩ v h1) h2 (ix2 (0 : Fin 1) c) = v (ix2 (0 : Fin 1) c) := by
  rw [shapeCast_a_1a_apply, shapeCast_1a_a_apply]

end Rows

section HostRows

variable {α : Type}

/-- A [b] vector broadcast along axis 1 to a [1, b] row: at (u, c), the vector's entry c. -/
theorem bcastInDim_vecRow_apply {b : Nat} (h : (⟨1, ![b]⟩ : Shape).BroadcastsInDim ⟨2, ![1, b]⟩ ![1])
    (x : (⟨1, ![b]⟩ : Shape).Idx → α) (u : Fin 1) (c : Fin b) :
    broadcastInDim ⟨2, ![1, b]⟩ ![1] h x (ix2 u c) = x (ix1 c) := by
  refine broadcastInDim_apply ![1] h x (ix2 u c) (ix1 c) ?_
  intro a
  match a with
  | ⟨0, _⟩ =>
    show c.val = if b = 1 then 0 else c.val
    split
    · have := c.isLt; omega
    · rfl

/-- A [b] vector broadcast to a [1, b] row and then down M rows: at (R, c), the vector's entry c. -/
theorem bcastInDim_vecRows_apply {M b : Nat} (h1 : (⟨1, ![b]⟩ : Shape).BroadcastsInDim ⟨2, ![1, b]⟩ ![1])
    (h2 : (⟨2, ![1, b]⟩ : Shape).BroadcastsInDim ⟨2, ![M, b]⟩ ![0, 1]) (x : (⟨1, ![b]⟩ : Shape).Idx → α)
    (R : Fin M) (c : Fin b) :
    broadcastInDim ⟨2, ![M, b]⟩ ![0, 1] h2 (broadcastInDim ⟨2, ![1, b]⟩ ![1] h1 x) (ix2 R c) = x (ix1 c) := by
  rw [broadcastInDim_oneRow_apply, bcastInDim_vecRow_apply]

/-- Row o of a stacked [n, b] parameter, sliced out as [1, b] and re-laid as [b]: at c, the parameter at (o, c). -/
theorem row_vec_apply {n b : Nat} (X : (⟨2, ![n, b]⟩ : Shape).Idx → α) (o : Nat) (ho : o < n)
    (hs : (⟨2, ![n, b]⟩ : Shape).Slices ![o, 0] ⟨2, ![1, b]⟩) (hc : (⟨2, ![1, b]⟩ : Shape).ShapeCasts ⟨1, ![b]⟩)
    (c : Fin b) :
    shapeCast ⟨1, ![b]⟩ (extractStridedSlice ⟨2, ![1, b]⟩ ![o, 0] X hs) hc (ix1 c) = X (ix2 (⟨o, ho⟩ : Fin n) c) := by
  rw [shapeCast_1a_a_apply]
  exact extractStridedSlice_apply _ X hs _ _ fun a => match a with
    | ⟨0, _⟩ => rfl
    | ⟨1, _⟩ => (Nat.zero_add _).symm

/-- Slab o of a stacked [n, a, b] parameter, sliced out as [1, a, b] and re-laid as [a, b]: at (p, q), the parameter
    at (o, p, q). -/
theorem slab_mat_apply {n a b : Nat} (X : (⟨3, ![n, a, b]⟩ : Shape).Idx → α) (o : Nat) (ho : o < n)
    (hs : (⟨3, ![n, a, b]⟩ : Shape).Slices ![o, 0, 0] ⟨3, ![1, a, b]⟩)
    (hc : (⟨3, ![1, a, b]⟩ : Shape).ShapeCasts ⟨2, ![a, b]⟩) (p : Fin a) (q : Fin b) :
    shapeCast ⟨2, ![a, b]⟩ (extractStridedSlice ⟨3, ![1, a, b]⟩ ![o, 0, 0] X hs) hc (ix2 p q)
      = X (ix3 (⟨o, ho⟩ : Fin n) p q) := by
  rw [shapeCast_1ab_ab_apply]
  exact extractStridedSlice_apply _ X hs _ _ fun ax => match ax with
    | ⟨0, _⟩ => rfl
    | ⟨1, _⟩ => (Nat.zero_add _).symm
    | ⟨2, _⟩ => (Nat.zero_add _).symm

/-- The first k slabs of a stacked [n, a, b] parameter: at (s, p, q), the parameter at (s, p, q). -/
theorem slabs_apply {n k a b : Nat} (X : (⟨3, ![n, a, b]⟩ : Shape).Idx → α) (hk : k ≤ n)
    (hs : (⟨3, ![n, a, b]⟩ : Shape).Slices ![0, 0, 0] ⟨3, ![k, a, b]⟩) (s : Fin k) (p : Fin a) (q : Fin b) :
    extractStridedSlice ⟨3, ![k, a, b]⟩ ![0, 0, 0] X hs (ix3 s p q) = X (ix3 (Fin.castLE hk s) p q) :=
  extractStridedSlice_apply _ X hs _ _ fun ax => match ax with
    | ⟨0, _⟩ => (Nat.zero_add _).symm
    | ⟨1, _⟩ => (Nat.zero_add _).symm
    | ⟨2, _⟩ => (Nat.zero_add _).symm

/-- The first k rows of a stacked [n, b] parameter: at (s, c), the parameter at (s, c). -/
theorem rows_apply {n k b : Nat} (X : (⟨2, ![n, b]⟩ : Shape).Idx → α) (hk : k ≤ n)
    (hs : (⟨2, ![n, b]⟩ : Shape).Slices ![0, 0] ⟨2, ![k, b]⟩) (s : Fin k) (c : Fin b) :
    extractStridedSlice ⟨2, ![k, b]⟩ ![0, 0] X hs (ix2 s c) = X (ix2 (Fin.castLE hk s) c) :=
  extractStridedSlice_apply _ X hs _ _ fun ax => match ax with
    | ⟨0, _⟩ => (Nat.zero_add _).symm
    | ⟨1, _⟩ => (Nat.zero_add _).symm

/-- A float constant broadcast from a scalar to any shape reads the constant's number everywhere. -/
theorem bcast_const_apply {T : Shape} {φ : FTy} (h : (⟨0, ![]⟩ : Shape).BroadcastsInDim T ![]) (w : BitVec φ.bits)
    (j : T.Idx) : broadcastInDim T ![] h (constant (F := Ideal) ⟨0, ![]⟩ φ w) j = Ideal.ofBits φ w :=
  broadcastInDim_scalar_apply h _ j

/-- The host's reciprocal square root of a vector, at an entry. -/
theorem hostRsqrt_apply {s : Shape} {φ : FTy} (a : FVec Ideal s φ) (i : s.Idx) :
    Host.rsqrt a i = Ideal.rsqrt (a i) := rfl

end HostRows

end Cert.Lib

end
-- ==== Proof.LibSageLayer.lean ====
/-
  THE DENSE STEP OF ONE GRAPH-SAGE LAYER, AT AN ENTRY.

  A layer takes node features x [M, K], the neighbours' mean features hn [M, K], two weight matrices Ws, Wn [K, N] and a
  bias b [N], and returns x·Ws + hn·Wn + b (in the hidden layers followed by the maximum with zero). Entry (r, q) of that
  matrix is, over the extended reals,

      ( Σ_k x(r,k)·Ws(k,q)  +  Σ_k hn(r,k)·Wn(k,q) )  +  b(q),

  the two sums and the two additions taken in exactly this order. A kernel that forms the two products into zero
  accumulators and adds the bias as a row repeated down the rows, and a host program that forms them by two dots and adds
  the bias broadcast in two steps, both give this number at every entry: each operation is only read at an entry, and no
  law of arithmetic (so no finiteness) is needed.
-/
import Idealize.ShloMosaic.PureOps.Ideal.Laws
import Idealize.ShloMosaic.Lib.ValueIdx
import Idealize.ShloMosaic.Lib.ValueLayout
import proofs.«157100_j89876485636273_1_alg».proof.Proof.LibRowReads

noncomputable section

open scoped BigOperators

namespace Cert.Sage

open Idealize.ShloMosaic Idealize.ShloMosaic.ValueIdx Cert.Lib

variable {M K N : Nat}

/-- Entry (r, q) of x·Ws + hn·Wn + b: the two contractions over k, added, then the bias entry q added. -/
def mixAt (x hn : FVec Ideal ⟨2, ![M, K]⟩ .f32) (Ws Wn : FVec Ideal ⟨2, ![K, N]⟩ .f32) (b : FVec Ideal ⟨1, ![N]⟩ .f32)
    (r : Fin M) (q : Fin N) : EReal :=
  ((∑ k : Fin K, x (ix2 r k) * Ws (ix2 k q)) + (∑ k : Fin K, hn (ix2 r k) * Wn (ix2 k q))) + b (ix1 q)

/-- The number depends on x and hn only through row r, and on b only through entry q: two sets of operands that agree
    there give the same entry. This is how a block of rows of the features stands for the whole feature matrix. -/
theorem mixAt_congr {M' : Nat} (x hn : FVec Ideal ⟨2, ![M, K]⟩ .f32) (x' hn' : FVec Ideal ⟨2, ![M', K]⟩ .f32)
    (Ws Wn Ws' Wn' : FVec Ideal ⟨2, ![K, N]⟩ .f32) (b b' : FVec Ideal ⟨1, ![N]⟩ .f32) (r : Fin M) (r' : Fin M') (q : Fin N)
    (hx : ∀ k : Fin K, x (ix2 r k) = x' (ix2 r' k)) (hh : ∀ k : Fin K, hn (ix2 r k) = hn' (ix2 r' k))
    (hs : ∀ k : Fin K, Ws (ix2 k q) = Ws' (ix2 k q)) (hw : ∀ k : Fin K, Wn (ix2 k q) = Wn' (ix2 k q))
    (hb : b (ix1 q) = b' (ix1 q)) :
    mixAt x hn Ws Wn b r q = mixAt x' hn' Ws' Wn' b' r' q := by
  unfold mixAt
  have e1 : (∑ k : Fin K, x (ix2 r k) * Ws (ix2 k q)) = ∑ k : Fin K, x' (ix2 r' k) * Ws' (ix2 k q) :=
    Finset.sum_congr rfl fun k _ => by rw [hx k, hs k]
  have e2 : (∑ k : Fin K, hn (ix2 r k) * Wn (ix2 k q)) = ∑ k : Fin K, hn' (ix2 r' k) * Wn' (ix2 k q) :=
    Finset.sum_congr rfl fun k _ => by rw [hh k, hw k]
  rw [e1, e2, hb]

/-- THE HOST PROGRAM'S SPELLING: two dots of plain [M,K]×[K,N] shape, added, plus the bias made a [1,N] row and then
    repeated down the M rows. At (r, q) it is the layer's entry. -/
theorem host_mix_at (d : DotDims ⟨2, ![M, K]⟩ ⟨2, ![K, N]⟩ ⟨2, ![M, N]⟩)
    (hl : d.lhsContracting = [1]) (hr : d.rhsContracting = [0]) (hln : d.lhsNonContracting = [0])
    (hrn : d.rhsNonContracting = [1]) (hlb : d.lhsBatch = []) (hrb : d.rhsBatch = [])
    (h1 : (⟨1, ![N]⟩ : Shape).BroadcastsInDim ⟨2, ![1, N]⟩ ![1])
    (h2 : (⟨2, ![1, N]⟩ : Shape).BroadcastsInDim ⟨2, ![M, N]⟩ ![0, 1])
    (x hn : FVec Ideal ⟨2, ![M, K]⟩ .f32) (Ws Wn : FVec Ideal ⟨2, ![K, N]⟩ .f32) (b : FVec Ideal ⟨1, ![N]⟩ .f32)
    (r : Fin M) (q : Fin N) :
    addf (addf (Host.dotGeneral d none x Ws) (Host.dotGeneral d none hn Wn))
        (broadcastInDim ⟨2, ![M, N]⟩ ![0, 1] h2 (broadcastInDim ⟨2, ![1, N]⟩ ![1] h1 b)) (ix2 r q)
      = mixAt x hn Ws Wn b r q := by
  rw [addf_apply, addf_apply, dotGeneral_at d hl hr hln hrn hlb hrb, dotGeneral_at d hl hr hln hrn hlb hrb,
    bcastInDim_vecRows_apply]
  rfl

/-- THE KERNEL'S SPELLING: two matrix products into zero accumulators, added, plus the bias re-laid as a [1,N] row and
    repeated down the M rows. At (r, q) it is the same entry. The operands of the products may carry any float format
    (a narrowing is the identity on the extended reals). -/
theorem kernel_mix_at (d : DotDims ⟨2, ![M, K]⟩ ⟨2, ![K, N]⟩ ⟨2, ![M, N]⟩)
    (hl : d.lhsContracting = [1]) (hr : d.rhsContracting = [0]) (hln : d.lhsNonContracting = [0])
    (hrn : d.rhsNonContracting = [1]) (hlb : d.lhsBatch = []) (hrb : d.rhsBatch = [])
    (hc : (⟨1, ![N]⟩ : Shape).ShapeCasts ⟨2, ![1, N]⟩) (hbr : (⟨2, ![1, N]⟩ : Shape).Broadcasts ⟨2, ![M, N]⟩)
    (x hn : FVec Ideal ⟨2, ![M, K]⟩ .f32) (Ws Wn : FVec Ideal ⟨2, ![K, N]⟩ .f32) (b : FVec Ideal ⟨1, ![N]⟩ .f32)
    (r : Fin M) (q : Fin N) :
    addf (addf (matmul d none (x : FVec Ideal ⟨2, ![M, K]⟩ .bf16) (Ws : FVec Ideal ⟨2, ![K, N]⟩ .bf16)
                  (constant (F := Ideal) ⟨2, ![M, N]⟩ .f32 0x00000000#32))
               (matmul d none (hn : FVec Ideal ⟨2, ![M, K]⟩ .bf16) (Wn : FVec Ideal ⟨2, ![K, N]⟩ .bf16)
                  (constant (F := Ideal) ⟨2, ![M, N]⟩ .f32 0x00000000#32)))
        (broadcastTo ⟨2, ![M, N]⟩ (shapeCast ⟨2, ![1, N]⟩ b hc) hbr) (ix2 r q)
      = mixAt x hn Ws Wn b r q := by
  rw [addf_apply, addf_apply, matmul_zero_at d hl hr hln hrn hlb hrb, matmul_zero_at d hl hr hln hrn hlb hrb,
    bcast_vec_apply]
  rfl

end Cert.Sage

end
-- ==== Proof.LibSageDense.lean ====
/-
  ONE LAYER OF THE NETWORK, AND ITS HEAD, AT AN ENTRY AND AS WHOLE MATRICES.

  A hidden layer takes the neighbours' mean features a [M, K], the node features x [M, K], two weight matrices Wl, Wr
  [K, N] and a bias b [N], and returns max(a·Wl + x·Wr + b, 0). Entry (r, q) of that matrix is, over the extended reals,

      max( ( Σ_k a(r,k)·Wl(k,q)  +  Σ_k x(r,k)·Wr(k,q) )  +  b(q) ,  0 ),

  the sums and additions in exactly this order. The head is h·Wc + bc, entry (r, q) being Σ_k h(r,k)·Wc(k,q) + bc(q).

  A kernel that forms each product into a zero block, adds the bias as a [1, N] row repeated down the rows and takes the
  maximum with a repeated zero, and a host program that forms the products by dots, adds the bias broadcast in two steps
  and takes the maximum with a broadcast zero, both give these numbers at every entry. Every operation is only READ at an
  entry: no law of arithmetic is used, so nothing needs to be finite. A narrowing of the float format is the identity on
  the extended reals.
-/
import Idealize.ShloMosaic.PureOps.Ideal.Laws
import Idealize.ShloMosaic.Lib.ValueIdx
import Idealize.ShloMosaic.Lib.ValueLayout
import proofs.«157100_j89876485636273_1_alg».proof.Proof.LibSageLayer

noncomputable section

open scoped BigOperators

namespace Cert.SageNet

open Idealize.ShloMosaic Idealize.ShloMosaic.ValueIdx Cert.Lib Cert.Sage

variable {M K N : Nat}

/-- The number a float zero word denotes. -/
abbrev zeroF : EReal := Ideal.ofBits .f32 0x00000000#32

/-- Entry (r, q) of max(a·Wl + x·Wr + b, 0). -/
def layerAt (a x : FVec Ideal ⟨2, ![M, K]⟩ .f32) (Wl Wr : FVec Ideal ⟨2, ![K, N]⟩ .f32) (b : FVec Ideal ⟨1, ![N]⟩ .f32)
    (r : Fin M) (q : Fin N) : EReal :=
  max (mixAt a x Wl Wr b r q) zeroF

/-- The layer as a whole matrix. -/
def layer (a x : FVec Ideal ⟨2, ![M, K]⟩ .f32) (Wl Wr : FVec Ideal ⟨2, ![K, N]⟩ .f32) (b : FVec Ideal ⟨1, ![N]⟩ .f32) :
    FVec Ideal ⟨2, ![M, N]⟩ .f32 :=
  fun i => layerAt a x Wl Wr b (i 0) (i 1)

/-- Entry (r, q) of h·Wc + bc. -/
def headAt (h : FVec Ideal ⟨2, ![M, K]⟩ .f32) (Wc : FVec Ideal ⟨2, ![K, N]⟩ .f32) (bc : FVec Ideal ⟨1, ![N]⟩ .f32)
    (r : Fin M) (q : Fin N) : EReal :=
  (∑ k : Fin K, h (ix2 r k) * Wc (ix2 k q)) + bc (ix1 q)

/-- The head as a whole matrix. -/
def head (h : FVec Ideal ⟨2, ![M, K]⟩ .f32) (Wc : FVec Ideal ⟨2, ![K, N]⟩ .f32) (bc : FVec Ideal ⟨1, ![N]⟩ .f32) :
    FVec Ideal ⟨2, ![M, N]⟩ .f32 :=
  fun i => headAt h Wc bc (i 0) (i 1)

theorem layer_apply (a x : FVec Ideal ⟨2, ![M, K]⟩ .f32) (Wl Wr : FVec Ideal ⟨2, ![K, N]⟩ .f32)
    (b : FVec Ideal ⟨1, ![N]⟩ .f32) (r : Fin M) (q : Fin N) :
    layer a x Wl Wr b (ix2 r q) = layerAt a x Wl Wr b r q := rfl

theorem head_apply (h : FVec Ideal ⟨2, ![M, K]⟩ .f32) (Wc : FVec Ideal ⟨2, ![K, N]⟩ .f32)
    (bc : FVec Ideal ⟨1, ![N]⟩ .f32) (r : Fin M) (q : Fin N) :
    head h Wc bc (ix2 r q) = headAt h Wc bc r q := rfl

/-- A layer's entry (r, q) needs only row r of the two feature matrices: a block of M' rows whose row r' holds row r of
    the M-row matrices gives the same number. -/
theorem layerAt_congr {M' : Nat} (a x : FVec Ideal ⟨2, ![M, K]⟩ .f32) (a' x' : FVec Ideal ⟨2, ![M', K]⟩ .f32)
    (Wl Wr Wl' Wr' : FVec Ideal ⟨2, ![K, N]⟩ .f32) (b b' : FVec Ideal ⟨1, ![N]⟩ .f32) (r : Fin M) (r' : Fin M') (q : Fin N)
    (ha : ∀ k : Fin K, a (ix2 r k) = a' (ix2 r' k)) (hx : ∀ k : Fin K, x (ix2 r k) = x' (ix2 r' k))
    (hl : ∀ k : Fin K, Wl (ix2 k q) = Wl' (ix2 k q)) (hr : ∀ k : Fin K, Wr (ix2 k q) = Wr' (ix2 k q))
    (hb : b (ix1 q) = b' (ix1 q)) :
    layerAt a x Wl Wr b r q = layerAt a' x' Wl' Wr' b' r' q := by
  unfold layerAt
  rw [mixAt_congr a x a' x' Wl Wr Wl' Wr' b b' r r' q ha hx hl hr hb]

/-- The same for the head. -/
theorem headAt_congr {M' : Nat} (h : FVec Ideal ⟨2, ![M, K]⟩ .f32) (h' : FVec Ideal ⟨2, ![M', K]⟩ .f32)
    (Wc Wc' : FVec Ideal ⟨2, ![K, N]⟩ .f32) (bc bc' : FVec Ideal ⟨1, ![N]⟩ .f32) (r : Fin M) (r' : Fin M') (q : Fin N)
    (hh : ∀ k : Fin K, h (ix2 r k) = h' (ix2 r' k)) (hw : ∀ k : Fin K, Wc (ix2 k q) = Wc' (ix2 k q))
    (hb : bc (ix1 q) = bc' (ix1 q)) :
    headAt h Wc bc r q = headAt h' Wc' bc' r' q := by
  unfold headAt
  rw [Finset.sum_congr rfl fun k _ => by rw [hh k, hw k], hb]

section Kernel

variable (d : DotDims ⟨2, ![M, K]⟩ ⟨2, ![K, N]⟩ ⟨2, ![M, N]⟩)

/-- THE KERNEL'S SPELLING OF A LAYER: the operands narrowed, two products into zero blocks, added, the bias (held as a
    [1, N] row whose entries are b's) repeated down the rows and added, the maximum with a repeated zero. -/
theorem kernel_layer_at (hl : d.lhsContracting = [1]) (hr : d.rhsContracting = [0]) (hln : d.lhsNonContracting = [0])
    (hrn : d.rhsNonContracting = [1]) (hlb : d.lhsBatch = []) (hrb : d.rhsBatch = [])
    (hbr : (⟨2, ![1, N]⟩ : Shape).Broadcasts ⟨2, ![M, N]⟩) (hlt : FTy.bf16.bits < FTy.f32.bits)
    (a x : FVec Ideal ⟨2, ![M, K]⟩ .f32) (Wl Wr : FVec Ideal ⟨2, ![K, N]⟩ .f32) (brow : FVec Ideal ⟨2, ![1, N]⟩ .f32)
    (b : FVec Ideal ⟨1, ![N]⟩ .f32) (hb : ∀ q : Fin N, brow (ix2 (0 : Fin 1) q) = b (ix1 q)) (r : Fin M) (q : Fin N) :
    maximumf
        (addf (addf (matmul d none (truncf .bf16 a hlt) (truncf .bf16 Wl hlt)
                      (constant (F := Ideal) ⟨2, ![M, N]⟩ .f32 0x00000000#32))
                    (matmul d none (truncf .bf16 x hlt) (truncf .bf16 Wr hlt)
                      (constant (F := Ideal) ⟨2, ![M, N]⟩ .f32 0x00000000#32)))
              (broadcastTo ⟨2, ![M, N]⟩ brow hbr))
        (broadcast ⟨2, ![M, N]⟩ (Scalar.ofBits (F := Ideal) .f32 0x00000000#32)) (ix2 r q)
      = layerAt a x Wl Wr b r q := by
  rw [maximumf_apply, addf_apply, addf_apply, broadcast_apply, matmul_zero_at d hl hr hln hrn hlb hrb,
    matmul_zero_at d hl hr hln hrn hlb hrb, broadcastTo_1b_ab_apply, hb q]
  rfl

/-- THE KERNEL'S SPELLING OF THE HEAD: one product into a zero block, the bias row repeated down the rows and added. -/
theorem kernel_head_at (hl : d.lhsContracting = [1]) (hr : d.rhsContracting = [0]) (hln : d.lhsNonContracting = [0])
    (hrn : d.rhsNonContracting = [1]) (hlb : d.lhsBatch = []) (hrb : d.rhsBatch = [])
    (hbr : (⟨2, ![1, N]⟩ : Shape).Broadcasts ⟨2, ![M, N]⟩) (hlt : FTy.bf16.bits < FTy.f32.bits)
    (h : FVec Ideal ⟨2, ![M, K]⟩ .f32) (Wc : FVec Ideal ⟨2, ![K, N]⟩ .f32) (brow : FVec Ideal ⟨2, ![1, N]⟩ .f32)
    (bc : FVec Ideal ⟨1, ![N]⟩ .f32) (hb : ∀ q : Fin N, brow (ix2 (0 : Fin 1) q) = bc (ix1 q)) (r : Fin M) (q : Fin N) :
    addf (matmul d none (truncf .bf16 h hlt) (truncf .bf16 Wc hlt)
            (constant (F := Ideal) ⟨2, ![M, N]⟩ .f32 0x00000000#32))
         (broadcastTo ⟨2, ![M, N]⟩ brow hbr) (ix2 r q)
      = headAt h Wc bc r q := by
  rw [addf_apply, matmul_zero_at d hl hr hln hrn hlb hrb, broadcastTo_1b_ab_apply, hb q]
  rfl

end Kernel

section Host

variable (d : DotDims ⟨2, ![M, K]⟩ ⟨2, ![K, N]⟩ ⟨2, ![M, N]⟩)

/-- THE HOST PROGRAM'S SPELLING OF A LAYER, as a whole matrix: two dots added, the bias made a row and repeated down the
    rows and added, the maximum with a broadcast zero. -/
theorem host_layer_eq (hl : d.lhsContracting = [1]) (hr : d.rhsContracting = [0]) (hln : d.lhsNonContracting = [0])
    (hrn : d.rhsNonContracting = [1]) (hlb : d.lhsBatch = []) (hrb : d.rhsBatch = [])
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![])
    (a x : FVec Ideal ⟨2, ![M, K]⟩ .f32) (Wl Wr : FVec Ideal ⟨2, ![K, N]⟩ .f32) (b : FVec Ideal ⟨1, ![N]⟩ .f32) :
    maximumf
        (addf (addf (Host.dotGeneral d none a Wl) (Host.dotGeneral d none x Wr))
              (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = layer a x Wl Wr b := by
  funext i
  obtain ⟨r, q, rfl⟩ : ∃ (r : Fin M) (q : Fin N), i = ix2 r q := ⟨i 0, i 1, eq_ix2 i⟩
  rw [maximumf_apply, host_mix_at d hl hr hln hrn hlb hrb h1 h2, bcast_const_apply, layer_apply]
  rfl

/-- THE HOST PROGRAM'S SPELLING OF THE HEAD, as a whole matrix. -/
theorem host_head_eq (hl : d.lhsContracting = [1]) (hr : d.rhsContracting = [0]) (hln : d.lhsNonContracting = [0])
    (hrn : d.rhsNonContracting = [1]) (hlb : d.lhsBatch = []) (hrb : d.rhsBatch = [])
    (h1 : (⟨1, ![N]⟩ : Shape).BroadcastsInDim ⟨2, ![1, N]⟩ ![1])
    (h2 : (⟨2, ![1, N]⟩ : Shape).BroadcastsInDim ⟨2, ![M, N]⟩ ![0, 1])
    (h : FVec Ideal ⟨2, ![M, K]⟩ .f32) (Wc : FVec Ideal ⟨2, ![K, N]⟩ .f32) (bc : FVec Ideal ⟨1, ![N]⟩ .f32) :
    addf (Host.dotGeneral d none h Wc)
         (broadcastInDim ⟨2, ![M, N]⟩ ![0, 1] h2 (broadcastInDim ⟨2, ![1, N]⟩ ![1] h1 bc))
      = head h Wc bc := by
  funext i
  obtain ⟨r, q, rfl⟩ : ∃ (r : Fin M) (q : Fin N), i = ix2 r q := ⟨i 0, i 1, eq_ix2 i⟩
  rw [addf_apply, dotGeneral_at d hl hr hln hrn hlb hrb, bcastInDim_vecRows_apply, head_apply]
  rfl

end Host

end Cert.SageNet

end
-- ==== Proof.Region0.lean ====
/-
  REGION 0 OF THE KERNEL: ONE HIDDEN LAYER, TEN ROW BLOCKS AT A TIME.

  The region's grid has ten points. Point t fetches rows 10000·t … 10000·t + 9999 of the neighbours' means and of the node
  features, the two whole weight matrices and the whole bias row, and writes rows 10000·t … 10000·t + 9999 of the result.
  Entry (p, q) of the block it writes is the layer's entry (p, q) computed from the fetched blocks, and a layer's entry
  needs only its own row of the two feature matrices, so it is entry (10000·t + p, q) of the layer computed from the whole
  arrays. The ten blocks tile the result array, so after the region the array holds the whole layer, whatever the arrays
  held when the region was entered (the parameter V).
-/
import proofs.«157100_j89876485636273_1_alg».proof.Proof.Gen.KernelIdeal.Frame
import proofs.«157100_j89876485636273_1_alg».proof.Proof.LibSageDense
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen Cert.SageNet

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at point t: the two feature windows and the result window at block row t, the weights
    and the bias row at the one block they have. Decided over the ten points. -/
theorem idx_facts : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem t_lt (t : Fin cfg0.N) : t.val < 10 := lt_of_lt_of_eq t.isLt (show cfg0.N = 10 from N_0)

/-- The row of the whole arrays that row p of point t's blocks is. -/
def rowOf (t : Fin cfg0.N) (p : Fin 10000) : Fin 100000 := ⟨t.val * 10000 + p.val, by have := t_lt t; have := p.isLt; omega⟩

/-- The payload at an entry, for any loaded blocks: the layer's entry of those blocks. -/
theorem pay_at (x0 x1 : Vec Ideal S10000x64 .f32) (x2 x3 : Vec Ideal S64x64 .f32) (x4 : Vec Ideal S1x64 .f32)
    (b : FVec Ideal ⟨1, ![64]⟩ .f32) (hb : ∀ q : Fin 64, x4 (ix2 (0 : Fin 1) q) = b (ix1 q)) (p : Fin 10000) (q : Fin 64) :
    k0_pay1 (F := Ideal) x0 x1 x2 x3 x4 (ix2 p q)
      = layerAt (M := 10000) (K := 64) (N := 64) x0 x1 x2 x3 b p q := by
  unfold k0_pay1
  simp only [shapeCast_self]
  exact kernel_layer_at (M := 10000) (K := 64) (N := 64) dot_S10000x64_S64x64_S10000x64_1_0_0_1_n_n rfl rfl rfl rfl rfl rfl _ _ x0 x1 x2 x3 x4 b hb p q

/-- Row p of the neighbours'-means block at point t is row 10000·t + p of that array as the region finds it. -/
theorem iblk_agg (c : Dev nD) (t : Fin cfg0.N) (p : Fin 10000) (j : Fin 64) :
    (iblk0 V c 0 t : Vec Ideal S10000x64 .f32) (ix2 p j) = (V c main_v22 : S100000x64.Idx → EReal) (ix2 (rowOf t p) j) := by
  obtain ⟨e00, e01, -⟩ := idx_facts t
  unfold iblk0
  rw [View.read_apply]
  show (V c main_v22 : S100000x64.Idx → EReal) _ = _
  refine congrArg (V c main_v22 : S100000x64.Idx → EReal) ?_
  funext a; apply Fin.ext
  match a with
  | ⟨0, _⟩ => show win0_0.index t (0 : Fin 2) * 10000 + 1 * p.val = t.val * 10000 + p.val; rw [e00]; omega
  | ⟨1, _⟩ => show win0_0.index t (1 : Fin 2) * 64 + 1 * j.val = j.val; rw [e01]; omega

/-- The same for the node-features block. -/
theorem iblk_x (c : Dev nD) (t : Fin cfg0.N) (p : Fin 10000) (j : Fin 64) :
    (iblk0 V c 1 t : Vec Ideal S10000x64 .f32) (ix2 p j) = (V c main_arg0 : S100000x64.Idx → EReal) (ix2 (rowOf t p) j) := by
  obtain ⟨-, -, e10, e11, -⟩ := idx_facts t
  unfold iblk0
  rw [View.read_apply]
  show (V c main_arg0 : S100000x64.Idx → EReal) _ = _
  refine congrArg (V c main_arg0 : S100000x64.Idx → EReal) ?_
  funext a; apply Fin.ext
  match a with
  | ⟨0, _⟩ => show win0_1.index t (0 : Fin 2) * 10000 + 1 * p.val = t.val * 10000 + p.val; rw [e10]; omega
  | ⟨1, _⟩ => show win0_1.index t (1 : Fin 2) * 64 + 1 * j.val = j.val; rw [e11]; omega

/-- The one block of each weight matrix is the matrix. -/
theorem iblk_wl (c : Dev nD) (t : Fin cfg0.N) (j : Fin 64) (q : Fin 64) :
    (iblk0 V c 2 t : Vec Ideal S64x64 .f32) (ix2 j q) = (V c main_arg2 : S64x64.Idx → EReal) (ix2 j q) := by
  obtain ⟨-, -, -, -, e20, e21, -⟩ := idx_facts t
  unfold iblk0
  rw [View.read_apply]
  show (V c main_arg2 : S64x64.Idx → EReal) _ = _
  refine congrArg (V c main_arg2 : S64x64.Idx → EReal) ?_
  funext a; apply Fin.ext
  match a with
  | ⟨0, _⟩ => show win0_2.index t (0 : Fin 2) * 64 + 1 * j.val = j.val; rw [e20]; omega
  | ⟨1, _⟩ => show win0_2.index t (1 : Fin 2) * 64 + 1 * q.val = q.val; rw [e21]; omega

theorem iblk_wr (c : Dev nD) (t : Fin cfg0.N) (j : Fin 64) (q : Fin 64) :
    (iblk0 V c 3 t : Vec Ideal S64x64 .f32) (ix2 j q) = (V c main_arg3 : S64x64.Idx → EReal) (ix2 j q) := by
  obtain ⟨-, -, -, -, -, -, e30, e31, -⟩ := idx_facts t
  unfold iblk0
  rw [View.read_apply]
  show (V c main_arg3 : S64x64.Idx → EReal) _ = _
  refine congrArg (V c main_arg3 : S64x64.Idx → EReal) ?_
  funext a; apply Fin.ext
  match a with
  | ⟨0, _⟩ => show win0_3.index t (0 : Fin 2) * 64 + 1 * j.val = j.val; rw [e30]; omega
  | ⟨1, _⟩ => show win0_3.index t (1 : Fin 2) * 64 + 1 * q.val = q.val; rw [e31]; omega

/-- The one block of the bias row is the row. -/
theorem iblk_b (c : Dev nD) (t : Fin cfg0.N) (q : Fin 64) :
    (iblk0 V c 4 t : Vec Ideal S1x64 .f32) (ix2 (0 : Fin 1) q) = (V c main_v23 : S1x64.Idx → EReal) (ix2 (0 : Fin 1) q) := by
  obtain ⟨-, -, -, -, -, -, -, -, e40, e41, -⟩ := idx_facts t
  unfold iblk0
  rw [View.read_apply]
  show (V c main_v23 : S1x64.Idx → EReal) _ = _
  refine congrArg (V c main_v23 : S1x64.Idx → EReal) ?_
  funext a; apply Fin.ext
  match a with
  | ⟨0, _⟩ => show win0_4.index t (0 : Fin 2) * 1 + 1 * 0 = 0; rw [e40]
  | ⟨1, _⟩ => show win0_4.index t (1 : Fin 2) * 64 + 1 * q.val = q.val; rw [e41]; omega

variable (b : FVec Ideal ⟨1, ![64]⟩ .f32)

/-- The whole layer of the arrays as the region finds them, the bias row standing for the bias vector b. -/
abbrev result (c : Dev nD) : S100000x64.Idx → EReal :=
  layer (M := 100000) (K := 64) (N := 64) (V c main_v22) (V c main_arg0) (V c main_arg2) (V c main_arg3) b

/-- WHAT POINT t WRITES BACK is block t of the whole layer. -/
theorem flushed_eq (c : Dev nD) (hb : ∀ q : Fin 64, (V c main_v23 : S1x64.Idx → EReal) (ix2 (0 : Fin 1) q) = b (ix1 q))
    (t : Fin cfg0.N) :
    (dat0 V c).flushed 5 t = ((cfg0.win 5).blk t).view.read (Elt Ideal) (result V b c) := by
  show (cfg0.win 5).cut (grid0.coords t) ((dat0 V c).after 5 t) = _
  rw [after0_5]
  unfold out0_5
  rw [View.canon_unit_zero hz]
  simp only [View.ld_unit_zero (S := S10000x64) hz, View.ld_unit_zero (S := S64x64) hz, View.ld_unit_zero (S := S1x64) hz]
  obtain ⟨-, -, -, -, -, -, -, -, -, -, e50, e51⟩ := idx_facts t
  funext y
  obtain ⟨p, q, rfl⟩ : ∃ (p : Fin 10000) (q : Fin 64), y = ix2 p q := ⟨y 0, y 1, eq_ix2 y⟩
  have hemb : ((cfg0.win 5).blk t).view.emb (ix2 p q) = (ix2 (rowOf t p) q : S100000x64.Idx) := by
    funext a; apply Fin.ext
    match a with
    | ⟨0, _⟩ => show win0_5.index t (0 : Fin 2) * 10000 + 1 * p.val = t.val * 10000 + p.val; rw [e50]; omega
    | ⟨1, _⟩ => show win0_5.index t (1 : Fin 2) * 64 + 1 * q.val = q.val; rw [e51]; omega
  show k0_pay1 (F := Ideal) (iblk0 V c 0 t) (iblk0 V c 1 t) (iblk0 V c 2 t) (iblk0 V c 3 t) (iblk0 V c 4 t) (ix2 p q)
      = result V b c (((cfg0.win 5).blk t).view.emb (ix2 p q))
  rw [hemb]
  refine (pay_at (iblk0 V c 0 t) (iblk0 V c 1 t) (iblk0 V c 2 t) (iblk0 V c 3 t) (iblk0 V c 4 t) b
    (fun q' => (iblk_b V c t q').trans (hb q')) p q).trans ?_
  exact (layerAt_congr (M := 100000) (M' := 10000) (K := 64) (N := 64) (V c main_v22) (V c main_arg0)
    (iblk0 V c 0 t) (iblk0 V c 1 t) (V c main_arg2) (V c main_arg3) (iblk0 V c 2 t) (iblk0 V c 3 t) b b (rowOf t p) p q
    (fun j => (iblk_agg V c t p j).symm) (fun j => (iblk_x V c t p j).symm)
    (fun j => (iblk_wl V c t j q).symm) (fun j => (iblk_wr V c t j q).symm) rfl).symm

/-- An index of the result array is in point t's block iff each coordinate is in the block's range on its axis. -/
theorem mem_blk (t : Fin cfg0.N) (i : S100000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v24).slice (win0_5.rect t)).set ↔ _
  rw [View.set_slice_whole, Rect.mem_set_unit]
  exact Iff.rfl

/-- Every row is in the block of the point its row number divided by 10000 names. -/
theorem cover (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  let t : Fin cfg0.N := ⟨(i 0).val / 10000, by rw [show cfg0.N = 10 from N_0]; omega⟩
  obtain ⟨-, -, -, -, -, -, -, -, -, -, e50, e51⟩ := idx_facts t
  have ht : t.val = (i 0).val / 10000 := rfl
  refine ⟨t, flush0_5 t, ?_⟩
  rw [mem_blk]
  intro a
  match a with
  | ⟨0, _⟩ => show win0_5.index t (0 : Fin 2) * 10000 ≤ (i 0).val ∧ (i 0).val < win0_5.index t (0 : Fin 2) * 10000 + 10000; rw [e50, ht]; omega
  | ⟨1, _⟩ => show win0_5.index t (1 : Fin 2) * 64 ≤ (i 1).val ∧ (i 1).val < win0_5.index t (1 : Fin 2) * 64 + 64; rw [e51]; omega

/-- THE RESULT ARRAY AFTER THE REGION is the whole layer of the arrays the region was entered with. -/
theorem final (c : Dev nD) (hb : ∀ q : Fin 64, (V c main_v23 : S1x64.Idx → EReal) (ix2 (0 : Fin 1) q) = b (ix1 q)) :
    (dat0 V c).arrAt 5 cfg0.N = result V b c :=
  (dat0 V c).arrAt_eq_of_cover 5 (result V b c) (fun t _ => flushed_eq V b c hb t) cover

end Cert.KernelIdeal.Region0

end
-- ==== Proof.Region1.lean ====
/-
  REGION 1 OF THE KERNEL: ONE HIDDEN LAYER, TEN ROW BLOCKS AT A TIME.

  The region's grid has ten points. Point t fetches rows 10000·t … 10000·t + 9999 of the neighbours' means and of the node
  features, the two whole weight matrices and the whole bias row, and writes rows 10000·t … 10000·t + 9999 of the result.
  Entry (p, q) of the block it writes is the layer's entry (p, q) computed from the fetched blocks, and a layer's entry
  needs only its own row of the two feature matrices, so it is entry (10000·t + p, q) of the layer computed from the whole
  arrays. The ten blocks tile the result array, so after the region the array holds the whole layer, whatever the arrays
  held when the region was entered (the parameter V).
-/
import proofs.«157100_j89876485636273_1_alg».proof.Proof.Gen.KernelIdeal.Frame
import proofs.«157100_j89876485636273_1_alg».proof.Proof.LibSageDense
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen Cert.SageNet

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at point t: the two feature windows and the result window at block row t, the weights
    and the bias row at the one block they have. Decided over the ten points. -/
theorem idx_facts : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem t_lt (t : Fin cfg1.N) : t.val < 10 := lt_of_lt_of_eq t.isLt (show cfg1.N = 10 from N_1)

/-- The row of the whole arrays that row p of point t's blocks is. -/
def rowOf (t : Fin cfg1.N) (p : Fin 10000) : Fin 100000 := ⟨t.val * 10000 + p.val, by have := t_lt t; have := p.isLt; omega⟩

/-- The payload at an entry, for any loaded blocks: the layer's entry of those blocks. -/
theorem pay_at (x0 x1 : Vec Ideal S10000x64 .f32) (x2 x3 : Vec Ideal S64x32 .f32) (x4 : Vec Ideal S1x32 .f32)
    (b : FVec Ideal ⟨1, ![32]⟩ .f32) (hb : ∀ q : Fin 32, x4 (ix2 (0 : Fin 1) q) = b (ix1 q)) (p : Fin 10000) (q : Fin 32) :
    k1_pay1 (F := Ideal) x0 x1 x2 x3 x4 (ix2 p q)
      = layerAt (M := 10000) (K := 64) (N := 32) x0 x1 x2 x3 b p q := by
  unfold k1_pay1
  simp only [shapeCast_self]
  exact kernel_layer_at (M := 10000) (K := 64) (N := 32) dot_S10000x64_S64x32_S10000x32_1_0_0_1_n_n rfl rfl rfl rfl rfl rfl _ _ x0 x1 x2 x3 x4 b hb p q

/-- Row p of the neighbours'-means block at point t is row 10000·t + p of that array as the region finds it. -/
theorem iblk_agg (c : Dev nD) (t : Fin cfg1.N) (p : Fin 10000) (j : Fin 64) :
    (iblk1 V c 0 t : Vec Ideal S10000x64 .f32) (ix2 p j) = (V c main_v43 : S100000x64.Idx → EReal) (ix2 (rowOf t p) j) := by
  obtain ⟨e00, e01, -⟩ := idx_facts t
  unfold iblk1
  rw [View.read_apply]
  show (V c main_v43 : S100000x64.Idx → EReal) _ = _
  refine congrArg (V c main_v43 : S100000x64.Idx → EReal) ?_
  funext a; apply Fin.ext
  match a with
  | ⟨0, _⟩ => show win1_0.index t (0 : Fin 2) * 10000 + 1 * p.val = t.val * 10000 + p.val; rw [e00]; omega
  | ⟨1, _⟩ => show win1_0.index t (1 : Fin 2) * 64 + 1 * j.val = j.val; rw [e01]; omega

/-- The same for the node-features block. -/
theorem iblk_x (c : Dev nD) (t : Fin cfg1.N) (p : Fin 10000) (j : Fin 64) :
    (iblk1 V c 1 t : Vec Ideal S10000x64 .f32) (ix2 p j) = (V c main_v24 : S100000x64.Idx → EReal) (ix2 (rowOf t p) j) := by
  obtain ⟨-, -, e10, e11, -⟩ := idx_facts t
  unfold iblk1
  rw [View.read_apply]
  show (V c main_v24 : S100000x64.Idx → EReal) _ = _
  refine congrArg (V c main_v24 : S100000x64.Idx → EReal) ?_
  funext a; apply Fin.ext
  match a with
  | ⟨0, _⟩ => show win1_1.index t (0 : Fin 2) * 10000 + 1 * p.val = t.val * 10000 + p.val; rw [e10]; omega
  | ⟨1, _⟩ => show win1_1.index t (1 : Fin 2) * 64 + 1 * j.val = j.val; rw [e11]; omega

/-- The one block of each weight matrix is the matrix. -/
theorem iblk_wl (c : Dev nD) (t : Fin cfg1.N) (j : Fin 64) (q : Fin 32) :
    (iblk1 V c 2 t : Vec Ideal S64x32 .f32) (ix2 j q) = (V c main_arg5 : S64x32.Idx → EReal) (ix2 j q) := by
  obtain ⟨-, -, -, -, e20, e21, -⟩ := idx_facts t
  unfold iblk1
  rw [View.read_apply]
  show (V c main_arg5 : S64x32.Idx → EReal) _ = _
  refine congrArg (V c main_arg5 : S64x32.Idx → EReal) ?_
  funext a; apply Fin.ext
  match a with
  | ⟨0, _⟩ => show win1_2.index t (0 : Fin 2) * 64 + 1 * j.val = j.val; rw [e20]; omega
  | ⟨1, _⟩ => show win1_2.index t (1 : Fin 2) * 32 + 1 * q.val = q.val; rw [e21]; omega

theorem iblk_wr (c : Dev nD) (t : Fin cfg1.N) (j : Fin 64) (q : Fin 32) :
    (iblk1 V c 3 t : Vec Ideal S64x32 .f32) (ix2 j q) = (V c main_arg6 : S64x32.Idx → EReal) (ix2 j q) := by
  obtain ⟨-, -, -, -, -, -, e30, e31, -⟩ := idx_facts t
  unfold iblk1
  rw [View.read_apply]
  show (V c main_arg6 : S64x32.Idx → EReal) _ = _
  refine congrArg (V c main_arg6 : S64x32.Idx → EReal) ?_
  funext a; apply Fin.ext
  match a with
  | ⟨0, _⟩ => show win1_3.index t (0 : Fin 2) * 64 + 1 * j.val = j.val; rw [e30]; omega
  | ⟨1, _⟩ => show win1_3.index t (1 : Fin 2) * 32 + 1 * q.val = q.val; rw [e31]; omega

/-- The one block of the bias row is the row. -/
theorem iblk_b (c : Dev nD) (t : Fin cfg1.N) (q : Fin 32) :
    (iblk1 V c 4 t : Vec Ideal S1x32 .f32) (ix2 (0 : Fin 1) q) = (V c main_v44 : S1x32.Idx → EReal) (ix2 (0 : Fin 1) q) := by
  obtain ⟨-, -, -, -, -, -, -, -, e40, e41, -⟩ := idx_facts t
  unfold iblk1
  rw [View.read_apply]
  show (V c main_v44 : S1x32.Idx → EReal) _ = _
  refine congrArg (V c main_v44 : S1x32.Idx → EReal) ?_
  funext a; apply Fin.ext
  match a with
  | ⟨0, _⟩ => show win1_4.index t (0 : Fin 2) * 1 + 1 * 0 = 0; rw [e40]
  | ⟨1, _⟩ => show win1_4.index t (1 : Fin 2) * 32 + 1 * q.val = q.val; rw [e41]; omega

variable (b : FVec Ideal ⟨1, ![32]⟩ .f32)

/-- The whole layer of the arrays as the region finds them, the bias row standing for the bias vector b. -/
abbrev result (c : Dev nD) : S100000x32.Idx → EReal :=
  layer (M := 100000) (K := 64) (N := 32) (V c main_v43) (V c main_v24) (V c main_arg5) (V c main_arg6) b

/-- WHAT POINT t WRITES BACK is block t of the whole layer. -/
theorem flushed_eq (c : Dev nD) (hb : ∀ q : Fin 32, (V c main_v44 : S1x32.Idx → EReal) (ix2 (0 : Fin 1) q) = b (ix1 q))
    (t : Fin cfg1.N) :
    (dat1 V c).flushed 5 t = ((cfg1.win 5).blk t).view.read (Elt Ideal) (result V b c) := by
  show (cfg1.win 5).cut (grid1.coords t) ((dat1 V c).after 5 t) = _
  rw [after1_5]
  unfold out1_5
  rw [View.canon_unit_zero hz]
  simp only [View.ld_unit_zero (S := S10000x64) hz, View.ld_unit_zero (S := S64x32) hz, View.ld_unit_zero (S := S1x32) hz]
  obtain ⟨-, -, -, -, -, -, -, -, -, -, e50, e51⟩ := idx_facts t
  funext y
  obtain ⟨p, q, rfl⟩ : ∃ (p : Fin 10000) (q : Fin 32), y = ix2 p q := ⟨y 0, y 1, eq_ix2 y⟩
  have hemb : ((cfg1.win 5).blk t).view.emb (ix2 p q) = (ix2 (rowOf t p) q : S100000x32.Idx) := by
    funext a; apply Fin.ext
    match a with
    | ⟨0, _⟩ => show win1_5.index t (0 : Fin 2) * 10000 + 1 * p.val = t.val * 10000 + p.val; rw [e50]; omega
    | ⟨1, _⟩ => show win1_5.index t (1 : Fin 2) * 32 + 1 * q.val = q.val; rw [e51]; omega
  show k1_pay1 (F := Ideal) (iblk1 V c 0 t) (iblk1 V c 1 t) (iblk1 V c 2 t) (iblk1 V c 3 t) (iblk1 V c 4 t) (ix2 p q)
      = result V b c (((cfg1.win 5).blk t).view.emb (ix2 p q))
  rw [hemb]
  refine (pay_at (iblk1 V c 0 t) (iblk1 V c 1 t) (iblk1 V c 2 t) (iblk1 V c 3 t) (iblk1 V c 4 t) b
    (fun q' => (iblk_b V c t q').trans (hb q')) p q).trans ?_
  exact (layerAt_congr (M := 100000) (M' := 10000) (K := 64) (N := 32) (V c main_v43) (V c main_v24)
    (iblk1 V c 0 t) (iblk1 V c 1 t) (V c main_arg5) (V c main_arg6) (iblk1 V c 2 t) (iblk1 V c 3 t) b b (rowOf t p) p q
    (fun j => (iblk_agg V c t p j).symm) (fun j => (iblk_x V c t p j).symm)
    (fun j => (iblk_wl V c t j q).symm) (fun j => (iblk_wr V c t j q).symm) rfl).symm

/-- An index of the result array is in point t's block iff each coordinate is in the block's range on its axis. -/
theorem mem_blk (t : Fin cfg1.N) (i : S100000x32.Idx) :
    i ∈ ((cfg1.win 5).blk t).view.set ↔ ∀ a : Fin 2, win1_5.index t a * S10000x32.size a ≤ (i a).val ∧ (i a).val < win1_5.index t a * S10000x32.size a + S10000x32.size a := by
  show i ∈ ((View.whole main_v45).slice (win1_5.rect t)).set ↔ _
  rw [View.set_slice_whole, Rect.mem_set_unit]
  exact Iff.rfl

/-- Every row is in the block of the point its row number divided by 10000 names. -/
theorem cover (i : S100000x32.Idx) : ∃ t : Fin cfg1.N, (cfg1.win 5).flush t = true ∧ i ∈ ((cfg1.win 5).blk t).view.set := by
  have hi0 : (i 0).val < 100000 := (i 0).isLt
  have hi1 : (i 1).val < 32 := (i 1).isLt
  let t : Fin cfg1.N := ⟨(i 0).val / 10000, by rw [show cfg1.N = 10 from N_1]; omega⟩
  obtain ⟨-, -, -, -, -, -, -, -, -, -, e50, e51⟩ := idx_facts t
  have ht : t.val = (i 0).val / 10000 := rfl
  refine ⟨t, flush1_5 t, ?_⟩
  rw [mem_blk]
  intro a
  match a with
  | ⟨0, _⟩ => show win1_5.index t (0 : Fin 2) * 10000 ≤ (i 0).val ∧ (i 0).val < win1_5.index t (0 : Fin 2) * 10000 + 10000; rw [e50, ht]; omega
  | ⟨1, _⟩ => show win1_5.index t (1 : Fin 2) * 32 ≤ (i 1).val ∧ (i 1).val < win1_5.index t (1 : Fin 2) * 32 + 32; rw [e51]; omega

/-- THE RESULT ARRAY AFTER THE REGION is the whole layer of the arrays the region was entered with. -/
theorem final (c : Dev nD) (hb : ∀ q : Fin 32, (V c main_v44 : S1x32.Idx → EReal) (ix2 (0 : Fin 1) q) = b (ix1 q)) :
    (dat1 V c).arrAt 5 cfg1.N = result V b c :=
  (dat1 V c).arrAt_eq_of_cover 5 (result V b c) (fun t _ => flushed_eq V b c hb t) cover

end Cert.KernelIdeal.Region1

end
-- ==== Proof.Region2.lean ====
/-
  REGION 2 OF THE KERNEL: ONE HIDDEN LAYER, TEN ROW BLOCKS AT A TIME.

  The region's grid has ten points. Point t fetches rows 10000·t … 10000·t + 9999 of the neighbours' means and of the node
  features, the two whole weight matrices and the whole bias row, and writes rows 10000·t … 10000·t + 9999 of the result.
  Entry (p, q) of the block it writes is the layer's entry (p, q) computed from the fetched blocks, and a layer's entry
  needs only its own row of the two feature matrices, so it is entry (10000·t + p, q) of the layer computed from the whole
  arrays. The ten blocks tile the result array, so after the region the array holds the whole layer, whatever the arrays
  held when the region was entered (the parameter V).
-/
import proofs.«157100_j89876485636273_1_alg».proof.Proof.Gen.KernelIdeal.Frame
import proofs.«157100_j89876485636273_1_alg».proof.Proof.LibSageDense
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen Cert.SageNet

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at point t: the two feature windows and the result window at block row t, the weights
    and the bias row at the one block they have. Decided over the ten points. -/
theorem idx_facts : ∀ t : Fin cfg2.N,
      win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem t_lt (t : Fin cfg2.N) : t.val < 10 := lt_of_lt_of_eq t.isLt (show cfg2.N = 10 from N_2)

/-- The row of the whole arrays that row p of point t's blocks is. -/
def rowOf (t : Fin cfg2.N) (p : Fin 10000) : Fin 100000 := ⟨t.val * 10000 + p.val, by have := t_lt t; have := p.isLt; omega⟩

/-- The payload at an entry, for any loaded blocks: the layer's entry of those blocks. -/
theorem pay_at (x0 x1 : Vec Ideal S10000x32 .f32) (x2 x3 : Vec Ideal S32x16 .f32) (x4 : Vec Ideal S1x16 .f32)
    (b : FVec Ideal ⟨1, ![16]⟩ .f32) (hb : ∀ q : Fin 16, x4 (ix2 (0 : Fin 1) q) = b (ix1 q)) (p : Fin 10000) (q : Fin 16) :
    k2_pay1 (F := Ideal) x0 x1 x2 x3 x4 (ix2 p q)
      = layerAt (M := 10000) (K := 32) (N := 16) x0 x1 x2 x3 b p q := by
  unfold k2_pay1
  simp only [shapeCast_self]
  exact kernel_layer_at (M := 10000) (K := 32) (N := 16) dot_S10000x32_S32x16_S10000x16_1_0_0_1_n_n rfl rfl rfl rfl rfl rfl _ _ x0 x1 x2 x3 x4 b hb p q

/-- Row p of the neighbours'-means block at point t is row 10000·t + p of that array as the region finds it. -/
theorem iblk_agg (c : Dev nD) (t : Fin cfg2.N) (p : Fin 10000) (j : Fin 32) :
    (iblk2 V c 0 t : Vec Ideal S10000x32 .f32) (ix2 p j) = (V c main_v64 : S100000x32.Idx → EReal) (ix2 (rowOf t p) j) := by
  obtain ⟨e00, e01, -⟩ := idx_facts t
  unfold iblk2
  rw [View.read_apply]
  show (V c main_v64 : S100000x32.Idx → EReal) _ = _
  refine congrArg (V c main_v64 : S100000x32.Idx → EReal) ?_
  funext a; apply Fin.ext
  match a with
  | ⟨0, _⟩ => show win2_0.index t (0 : Fin 2) * 10000 + 1 * p.val = t.val * 10000 + p.val; rw [e00]; omega
  | ⟨1, _⟩ => show win2_0.index t (1 : Fin 2) * 32 + 1 * j.val = j.val; rw [e01]; omega

/-- The same for the node-features block. -/
theorem iblk_x (c : Dev nD) (t : Fin cfg2.N) (p : Fin 10000) (j : Fin 32) :
    (iblk2 V c 1 t : Vec Ideal S10000x32 .f32) (ix2 p j) = (V c main_v45 : S100000x32.Idx → EReal) (ix2 (rowOf t p) j) := by
  obtain ⟨-, -, e10, e11, -⟩ := idx_facts t
  unfold iblk2
  rw [View.read_apply]
  show (V c main_v45 : S100000x32.Idx → EReal) _ = _
  refine congrArg (V c main_v45 : S100000x32.Idx → EReal) ?_
  funext a; apply Fin.ext
  match a with
  | ⟨0, _⟩ => show win2_1.index t (0 : Fin 2) * 10000 + 1 * p.val = t.val * 10000 + p.val; rw [e10]; omega
  | ⟨1, _⟩ => show win2_1.index t (1 : Fin 2) * 32 + 1 * j.val = j.val; rw [e11]; omega

/-- The one block of each weight matrix is the matrix. -/
theorem iblk_wl (c : Dev nD) (t : Fin cfg2.N) (j : Fin 32) (q : Fin 16) :
    (iblk2 V c 2 t : Vec Ideal S32x16 .f32) (ix2 j q) = (V c main_arg8 : S32x16.Idx → EReal) (ix2 j q) := by
  obtain ⟨-, -, -, -, e20, e21, -⟩ := idx_facts t
  unfold iblk2
  rw [View.read_apply]
  show (V c main_arg8 : S32x16.Idx → EReal) _ = _
  refine congrArg (V c main_arg8 : S32x16.Idx → EReal) ?_
  funext a; apply Fin.ext
  match a with
  | ⟨0, _⟩ => show win2_2.index t (0 : Fin 2) * 32 + 1 * j.val = j.val; rw [e20]; omega
  | ⟨1, _⟩ => show win2_2.index t (1 : Fin 2) * 16 + 1 * q.val = q.val; rw [e21]; omega

theorem iblk_wr (c : Dev nD) (t : Fin cfg2.N) (j : Fin 32) (q : Fin 16) :
    (iblk2 V c 3 t : Vec Ideal S32x16 .f32) (ix2 j q) = (V c main_arg9 : S32x16.Idx → EReal) (ix2 j q) := by
  obtain ⟨-, -, -, -, -, -, e30, e31, -⟩ := idx_facts t
  unfold iblk2
  rw [View.read_apply]
  show (V c main_arg9 : S32x16.Idx → EReal) _ = _
  refine congrArg (V c main_arg9 : S32x16.Idx → EReal) ?_
  funext a; apply Fin.ext
  match a with
  | ⟨0, _⟩ => show win2_3.index t (0 : Fin 2) * 32 + 1 * j.val = j.val; rw [e30]; omega
  | ⟨1, _⟩ => show win2_3.index t (1 : Fin 2) * 16 + 1 * q.val = q.val; rw [e31]; omega

/-- The one block of the bias row is the row. -/
theorem iblk_b (c : Dev nD) (t : Fin cfg2.N) (q : Fin 16) :
    (iblk2 V c 4 t : Vec Ideal S1x16 .f32) (ix2 (0 : Fin 1) q) = (V c main_v65 : S1x16.Idx → EReal) (ix2 (0 : Fin 1) q) := by
  obtain ⟨-, -, -, -, -, -, -, -, e40, e41, -⟩ := idx_facts t
  unfold iblk2
  rw [View.read_apply]
  show (V c main_v65 : S1x16.Idx → EReal) _ = _
  refine congrArg (V c main_v65 : S1x16.Idx → EReal) ?_
  funext a; apply Fin.ext
  match a with
  | ⟨0, _⟩ => show win2_4.index t (0 : Fin 2) * 1 + 1 * 0 = 0; rw [e40]
  | ⟨1, _⟩ => show win2_4.index t (1 : Fin 2) * 16 + 1 * q.val = q.val; rw [e41]; omega

variable (b : FVec Ideal ⟨1, ![16]⟩ .f32)

/-- The whole layer of the arrays as the region finds them, the bias row standing for the bias vector b. -/
abbrev result (c : Dev nD) : S100000x16.Idx → EReal :=
  layer (M := 100000) (K := 32) (N := 16) (V c main_v64) (V c main_v45) (V c main_arg8) (V c main_arg9) b

/-- WHAT POINT t WRITES BACK is block t of the whole layer. -/
theorem flushed_eq (c : Dev nD) (hb : ∀ q : Fin 16, (V c main_v65 : S1x16.Idx → EReal) (ix2 (0 : Fin 1) q) = b (ix1 q))
    (t : Fin cfg2.N) :
    (dat2 V c).flushed 5 t = ((cfg2.win 5).blk t).view.read (Elt Ideal) (result V b c) := by
  show (cfg2.win 5).cut (grid2.coords t) ((dat2 V c).after 5 t) = _
  rw [after2_5]
  unfold out2_5
  rw [View.canon_unit_zero hz]
  simp only [View.ld_unit_zero (S := S10000x32) hz, View.ld_unit_zero (S := S32x16) hz, View.ld_unit_zero (S := S1x16) hz]
  obtain ⟨-, -, -, -, -, -, -, -, -, -, e50, e51⟩ := idx_facts t
  funext y
  obtain ⟨p, q, rfl⟩ : ∃ (p : Fin 10000) (q : Fin 16), y = ix2 p q := ⟨y 0, y 1, eq_ix2 y⟩
  have hemb : ((cfg2.win 5).blk t).view.emb (ix2 p q) = (ix2 (rowOf t p) q : S100000x16.Idx) := by
    funext a; apply Fin.ext
    match a with
    | ⟨0, _⟩ => show win2_5.index t (0 : Fin 2) * 10000 + 1 * p.val = t.val * 10000 + p.val; rw [e50]; omega
    | ⟨1, _⟩ => show win2_5.index t (1 : Fin 2) * 16 + 1 * q.val = q.val; rw [e51]; omega
  show k2_pay1 (F := Ideal) (iblk2 V c 0 t) (iblk2 V c 1 t) (iblk2 V c 2 t) (iblk2 V c 3 t) (iblk2 V c 4 t) (ix2 p q)
      = result V b c (((cfg2.win 5).blk t).view.emb (ix2 p q))
  rw [hemb]
  refine (pay_at (iblk2 V c 0 t) (iblk2 V c 1 t) (iblk2 V c 2 t) (iblk2 V c 3 t) (iblk2 V c 4 t) b
    (fun q' => (iblk_b V c t q').trans (hb q')) p q).trans ?_
  exact (layerAt_congr (M := 100000) (M' := 10000) (K := 32) (N := 16) (V c main_v64) (V c main_v45)
    (iblk2 V c 0 t) (iblk2 V c 1 t) (V c main_arg8) (V c main_arg9) (iblk2 V c 2 t) (iblk2 V c 3 t) b b (rowOf t p) p q
    (fun j => (iblk_agg V c t p j).symm) (fun j => (iblk_x V c t p j).symm)
    (fun j => (iblk_wl V c t j q).symm) (fun j => (iblk_wr V c t j q).symm) rfl).symm

/-- An index of the result array is in point t's block iff each coordinate is in the block's range on its axis. -/
theorem mem_blk (t : Fin cfg2.N) (i : S100000x16.Idx) :
    i ∈ ((cfg2.win 5).blk t).view.set ↔ ∀ a : Fin 2, win2_5.index t a * S10000x16.size a ≤ (i a).val ∧ (i a).val < win2_5.index t a * S10000x16.size a + S10000x16.size a := by
  show i ∈ ((View.whole main_v66).slice (win2_5.rect t)).set ↔ _
  rw [View.set_slice_whole, Rect.mem_set_unit]
  exact Iff.rfl

/-- Every row is in the block of the point its row number divided by 10000 names. -/
theorem cover (i : S100000x16.Idx) : ∃ t : Fin cfg2.N, (cfg2.win 5).flush t = true ∧ i ∈ ((cfg2.win 5).blk t).view.set := by
  have hi0 : (i 0).val < 100000 := (i 0).isLt
  have hi1 : (i 1).val < 16 := (i 1).isLt
  let t : Fin cfg2.N := ⟨(i 0).val / 10000, by rw [show cfg2.N = 10 from N_2]; omega⟩
  obtain ⟨-, -, -, -, -, -, -, -, -, -, e50, e51⟩ := idx_facts t
  have ht : t.val = (i 0).val / 10000 := rfl
  refine ⟨t, flush2_5 t, ?_⟩
  rw [mem_blk]
  intro a
  match a with
  | ⟨0, _⟩ => show win2_5.index t (0 : Fin 2) * 10000 ≤ (i 0).val ∧ (i 0).val < win2_5.index t (0 : Fin 2) * 10000 + 10000; rw [e50, ht]; omega
  | ⟨1, _⟩ => show win2_5.index t (1 : Fin 2) * 16 ≤ (i 1).val ∧ (i 1).val < win2_5.index t (1 : Fin 2) * 16 + 16; rw [e51]; omega

/-- THE RESULT ARRAY AFTER THE REGION is the whole layer of the arrays the region was entered with. -/
theorem final (c : Dev nD) (hb : ∀ q : Fin 16, (V c main_v65 : S1x16.Idx → EReal) (ix2 (0 : Fin 1) q) = b (ix1 q)) :
    (dat2 V c).arrAt 5 cfg2.N = result V b c :=
  (dat2 V c).arrAt_eq_of_cover 5 (result V b c) (fun t _ => flushed_eq V b c hb t) cover

end Cert.KernelIdeal.Region2

end
-- ==== Proof.Region3.lean ====
/-
  THE LAST REGION OF THE KERNEL: THE LINEAR HEAD, TEN ROW BLOCKS AT A TIME.

  Point t of the ten fetches rows 10000·t … 10000·t + 9999 of the last hidden layer, the whole [16, 1] weight column and the
  [1, 1] bias, and writes rows 10000·t … 10000·t + 9999 of the [100000, 1] result. Entry (p, 0) of the written block is the
  head's entry computed from the fetched blocks; it needs only its own row of the features, so it is entry (10000·t + p, 0)
  of the head of the whole arrays. The ten blocks tile the result, so after the region it holds the whole head.
-/
import proofs.«157100_j89876485636273_1_alg».proof.Proof.Gen.KernelIdeal.Frame
import proofs.«157100_j89876485636273_1_alg».proof.Proof.LibSageDense
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region3

open Cert.KernelIdeal Cert.KernelIdeal.Gen Cert.SageNet

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at point t: the features and the result at block row t, the weight column and the
    bias at the one block they have. Decided over the ten points. -/
theorem idx_facts : ∀ t : Fin cfg3.N,
      win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

theorem t_lt (t : Fin cfg3.N) : t.val < 10 := lt_of_lt_of_eq t.isLt (show cfg3.N = 10 from N_3)

/-- The row of the whole arrays that row p of point t's blocks is. -/
def rowOf (t : Fin cfg3.N) (p : Fin 10000) : Fin 100000 := ⟨t.val * 10000 + p.val, by have := t_lt t; have := p.isLt; omega⟩

/-- The payload at an entry, for any loaded blocks: the head's entry of those blocks. -/
theorem pay_at (x0 : Vec Ideal S10000x16 .f32) (x1 : Vec Ideal S16x1 .f32) (x2 : Vec Ideal S1x1 .f32)
    (bc : FVec Ideal ⟨1, ![1]⟩ .f32) (hb : ∀ q : Fin 1, x2 (ix2 (0 : Fin 1) q) = bc (ix1 q)) (p : Fin 10000) (q : Fin 1) :
    k3_pay1 (F := Ideal) x0 x1 x2 (ix2 p q) = headAt (M := 10000) (K := 16) (N := 1) x0 x1 bc p q := by
  unfold k3_pay1
  simp only [shapeCast_self]
  exact kernel_head_at (M := 10000) (K := 16) (N := 1) dot_S10000x16_S16x1_S10000x1_1_0_0_1_n_n rfl rfl rfl rfl rfl rfl _ _ x0 x1 x2 bc hb p q

/-- Row p of the features block at point t is row 10000·t + p of the last hidden layer as the region finds it. -/
theorem iblk_h (c : Dev nD) (t : Fin cfg3.N) (p : Fin 10000) (j : Fin 16) :
    (iblk3 V c 0 t : Vec Ideal S10000x16 .f32) (ix2 p j) = (V c main_v66 : S100000x16.Idx → EReal) (ix2 (rowOf t p) j) := by
  obtain ⟨e00, e01, -⟩ := idx_facts t
  unfold iblk3
  rw [View.read_apply]
  show (V c main_v66 : S100000x16.Idx → EReal) _ = _
  refine congrArg (V c main_v66 : S100000x16.Idx → EReal) ?_
  funext a; apply Fin.ext
  match a with
  | ⟨0, _⟩ => show win3_0.index t (0 : Fin 2) * 10000 + 1 * p.val = t.val * 10000 + p.val; rw [e00]; omega
  | ⟨1, _⟩ => show win3_0.index t (1 : Fin 2) * 16 + 1 * j.val = j.val; rw [e01]; omega

/-- The one block of the weight column is the column. -/
theorem iblk_w (c : Dev nD) (t : Fin cfg3.N) (j : Fin 16) (q : Fin 1) :
    (iblk3 V c 1 t : Vec Ideal S16x1 .f32) (ix2 j q) = (V c main_arg11 : S16x1.Idx → EReal) (ix2 j q) := by
  obtain ⟨-, -, e10, e11, -⟩ := idx_facts t
  unfold iblk3
  rw [View.read_apply]
  show (V c main_arg11 : S16x1.Idx → EReal) _ = _
  refine congrArg (V c main_arg11 : S16x1.Idx → EReal) ?_
  funext a; apply Fin.ext
  match a with
  | ⟨0, _⟩ => show win3_1.index t (0 : Fin 2) * 16 + 1 * j.val = j.val; rw [e10]; omega
  | ⟨1, _⟩ => show win3_1.index t (1 : Fin 2) * 1 + 1 * q.val = q.val; rw [e11]; omega

/-- The one block of the bias is the bias. -/
theorem iblk_b (c : Dev nD) (t : Fin cfg3.N) (q : Fin 1) :
    (iblk3 V c 2 t : Vec Ideal S1x1 .f32) (ix2 (0 : Fin 1) q) = (V c main_v67 : S1x1.Idx → EReal) (ix2 (0 : Fin 1) q) := by
  obtain ⟨-, -, -, -, e20, e21, -⟩ := idx_facts t
  unfold iblk3
  rw [View.read_apply]
  show (V c main_v67 : S1x1.Idx → EReal) _ = _
  refine congrArg (V c main_v67 : S1x1.Idx → EReal) ?_
  funext a; apply Fin.ext
  match a with
  | ⟨0, _⟩ => show win3_2.index t (0 : Fin 2) * 1 + 1 * 0 = 0; rw [e20]
  | ⟨1, _⟩ => show win3_2.index t (1 : Fin 2) * 1 + 1 * q.val = q.val; rw [e21]; omega

variable (bc : FVec Ideal ⟨1, ![1]⟩ .f32)

/-- The whole head of the arrays as the region finds them, the [1, 1] bias standing for the bias vector bc. -/
abbrev result (c : Dev nD) : S100000x1.Idx → EReal :=
  head (M := 100000) (K := 16) (N := 1) (V c main_v66) (V c main_arg11) bc

/-- WHAT POINT t WRITES BACK is block t of the whole head. -/
theorem flushed_eq (c : Dev nD) (hb : ∀ q : Fin 1, (V c main_v67 : S1x1.Idx → EReal) (ix2 (0 : Fin 1) q) = bc (ix1 q))
    (t : Fin cfg3.N) :
    (dat3 V c).flushed 3 t = ((cfg3.win 3).blk t).view.read (Elt Ideal) (result V bc c) := by
  show (cfg3.win 3).cut (grid3.coords t) ((dat3 V c).after 3 t) = _
  rw [after3_3]
  unfold out3_3
  rw [View.canon_unit_zero hz]
  simp only [View.ld_unit_zero (S := S10000x16) hz, View.ld_unit_zero (S := S16x1) hz, View.ld_unit_zero (S := S1x1) hz]
  obtain ⟨-, -, -, -, -, -, e30, e31⟩ := idx_facts t
  funext y
  obtain ⟨p, q, rfl⟩ : ∃ (p : Fin 10000) (q : Fin 1), y = ix2 p q := ⟨y 0, y 1, eq_ix2 y⟩
  have hemb : ((cfg3.win 3).blk t).view.emb (ix2 p q) = (ix2 (rowOf t p) q : S100000x1.Idx) := by
    funext a; apply Fin.ext
    match a with
    | ⟨0, _⟩ => show win3_3.index t (0 : Fin 2) * 10000 + 1 * p.val = t.val * 10000 + p.val; rw [e30]; omega
    | ⟨1, _⟩ => show win3_3.index t (1 : Fin 2) * 1 + 1 * q.val = q.val; rw [e31]; omega
  show k3_pay1 (F := Ideal) (iblk3 V c 0 t) (iblk3 V c 1 t) (iblk3 V c 2 t) (ix2 p q)
      = result V bc c (((cfg3.win 3).blk t).view.emb (ix2 p q))
  rw [hemb]
  refine (pay_at (iblk3 V c 0 t) (iblk3 V c 1 t) (iblk3 V c 2 t) bc
    (fun q' => (iblk_b V c t q').trans (hb q')) p q).trans ?_
  exact (headAt_congr (M := 100000) (M' := 10000) (K := 16) (N := 1) (V c main_v66) (iblk3 V c 0 t)
    (V c main_arg11) (iblk3 V c 1 t) bc bc (rowOf t p) p q
    (fun j => (iblk_h V c t p j).symm) (fun j => (iblk_w V c t j q).symm) rfl).symm

/-- An index of the result array is in point t's block iff each coordinate is in the block's range on its axis. -/
theorem mem_blk (t : Fin cfg3.N) (i : S100000x1.Idx) :
    i ∈ ((cfg3.win 3).blk t).view.set ↔ ∀ a : Fin 2, win3_3.index t a * S10000x1.size a ≤ (i a).val ∧ (i a).val < win3_3.index t a * S10000x1.size a + S10000x1.size a := by
  show i ∈ ((View.whole main_v68).slice (win3_3.rect t)).set ↔ _
  rw [View.set_slice_whole, Rect.mem_set_unit]
  exact Iff.rfl

/-- Every row is in the block of the point its row number divided by 10000 names. -/
theorem cover (i : S100000x1.Idx) : ∃ t : Fin cfg3.N, (cfg3.win 3).flush t = true ∧ i ∈ ((cfg3.win 3).blk t).view.set := by
  have hi0 : (i 0).val < 100000 := (i 0).isLt
  have hi1 : (i 1).val < 1 := (i 1).isLt
  let t : Fin cfg3.N := ⟨(i 0).val / 10000, by rw [show cfg3.N = 10 from N_3]; omega⟩
  obtain ⟨-, -, -, -, -, -, e30, e31⟩ := idx_facts t
  have ht : t.val = (i 0).val / 10000 := rfl
  refine ⟨t, flush3_3 t, ?_⟩
  rw [mem_blk]
  intro a
  match a with
  | ⟨0, _⟩ => show win3_3.index t (0 : Fin 2) * 10000 ≤ (i 0).val ∧ (i 0).val < win3_3.index t (0 : Fin 2) * 10000 + 10000; rw [e30, ht]; omega
  | ⟨1, _⟩ => show win3_3.index t (1 : Fin 2) * 1 ≤ (i 1).val ∧ (i 1).val < win3_3.index t (1 : Fin 2) * 1 + 1; rw [e31]; omega

/-- THE RESULT ARRAY AFTER THE REGION is the whole head of the arrays the region was entered with. -/
theorem final (c : Dev nD) (hb : ∀ q : Fin 1, (V c main_v67 : S1x1.Idx → EReal) (ix2 (0 : Fin 1) q) = bc (ix1 q)) :
    (dat3 V c).arrAt 3 cfg3.N = result V bc c :=
  (dat3 V c).arrAt_eq_of_cover 3 (result V bc c) (fun t _ => flushed_eq V bc c hb t) cover

end Cert.KernelIdeal.Region3

end
-- ==== Proof.Aggregate.lean ====
/-
  THE MEAN OVER INCOMING EDGES, AS ONE FUNCTION.

  The graph has 100000 nodes and 3200000 edges, given as a [2, 3200000] table of node numbers: row 0 the sources, row 1
  the destinations. For node features h [100000, D] the aggregate is, row by row,

      agg(h)(v, ·) = ( Σ over edges e with dst(e) = v of h(src'(e), ·) ) / max( #{e : dst(e) = v}, 1 ),

  where src' is src with negative numbers wrapped by adding 100000. It is spelt here exactly as the programs spell it — a
  row gather, a scatter-add into zeros, a scatter-add of ones for the count, the maximum with one, a division — with the
  records that describe the gather and the scatters as parameters, so that both programs' aggregates are this ONE function
  and nothing about gathers or scatters ever has to be opened.
-/
import Idealize.ShloMosaic.PureOps

noncomputable section

namespace Cert.SageNet

open Idealize.ShloMosaic

variable {F : FTy → Type} [FloatOps F]

/-- The records and side conditions of one aggregate over features of width D. -/
structure AggDims (D : Nat) where
  gd : GatherDims ⟨2, ![100000, D]⟩ ⟨2, ![3200000, 1]⟩ ⟨2, ![3200000, D]⟩
  sd : ScatterDims ⟨2, ![100000, D]⟩ ⟨2, ![3200000, 1]⟩ ⟨2, ![3200000, D]⟩
  sv : ScatterDims ⟨1, ![100000]⟩ ⟨2, ![3200000, 1]⟩ ⟨1, ![3200000]⟩
  p0D : (⟨0, ![]⟩ : Shape).BroadcastsInDim ⟨2, ![100000, D]⟩ ![]
  pE1 : (⟨1, ![3200000]⟩ : Shape).BroadcastsInDim ⟨2, ![3200000, 1]⟩ ![0]
  p0E : (⟨0, ![]⟩ : Shape).BroadcastsInDim ⟨1, ![3200000]⟩ ![]
  p0N : (⟨0, ![]⟩ : Shape).BroadcastsInDim ⟨1, ![100000]⟩ ![]
  pN1 : (⟨1, ![100000]⟩ : Shape).BroadcastsInDim ⟨2, ![100000, 1]⟩ ![0]
  pND : (⟨2, ![100000, 1]⟩ : Shape).BroadcastsInDim ⟨2, ![100000, D]⟩ ![0, 1]

/-- Row o of the [2, 3200000] edge table as a vector of 3200000 node numbers. -/
def edgeRow (o : Nat) (hs : (⟨2, ![2, 3200000]⟩ : Shape).Slices ![o, 0] ⟨2, ![1, 3200000]⟩)
    (hc : (⟨2, ![1, 3200000]⟩ : Shape).ShapeCasts ⟨1, ![3200000]⟩) (ei : IVec ⟨2, ![2, 3200000]⟩ 32) :
    IVec ⟨1, ![3200000]⟩ 32 :=
  shapeCast ⟨1, ![3200000]⟩ (extractStridedSlice ⟨2, ![1, 3200000]⟩ ![o, 0] ei hs) hc

/-- The mean of h over each node's incoming edges (zero-degree nodes divide by one). -/
def meanAgg {D : Nat} (A : AggDims D) (h : FVec F ⟨2, ![100000, D]⟩ .f32) (src dst : IVec ⟨1, ![3200000]⟩ 32) :
    FVec F ⟨2, ![100000, D]⟩ .f32 :=
  Host.divf
    (Host.scatterAdd A.sd (broadcastInDim ⟨2, ![100000, D]⟩ ![] A.p0D (constant ⟨0, ![]⟩ .f32 0x00000000#32))
      (broadcastInDim ⟨2, ![3200000, 1]⟩ ![0] A.pE1 dst)
      (Host.gather A.gd h (broadcastInDim ⟨2, ![3200000, 1]⟩ ![0] A.pE1
        (select (cmpi .slt src (broadcastInDim ⟨1, ![3200000]⟩ ![] A.p0E (constantI ⟨0, ![]⟩ 32 0#32)))
          (addi src (broadcastInDim ⟨1, ![3200000]⟩ ![] A.p0E (constantI ⟨0, ![]⟩ 32 100000#32))) src))))
    (broadcastInDim ⟨2, ![100000, D]⟩ ![0, 1] A.pND (broadcastInDim ⟨2, ![100000, 1]⟩ ![0] A.pN1
      (maximumf
        (Host.scatterAdd A.sv (broadcastInDim ⟨1, ![100000]⟩ ![] A.p0N (constant ⟨0, ![]⟩ .f32 0x00000000#32))
          (broadcastInDim ⟨2, ![3200000, 1]⟩ ![0] A.pE1 dst)
          (broadcastInDim ⟨1, ![3200000]⟩ ![] A.p0E (constant ⟨0, ![]⟩ .f32 0x3F800000#32)))
        (broadcastInDim ⟨1, ![100000]⟩ ![] A.p0N (constant ⟨0, ![]⟩ .f32 0x3F800000#32)))))

end Cert.SageNet

end
-- ==== Proof.Network.lean ====
/-
  THE WHOLE NETWORK AS ONE FUNCTION OF ITS ARGUMENTS.

  One layer of the network takes features h, aggregates them over incoming edges, and applies the dense step to the
  aggregate and to h itself:  sage(h) = max(agg(h)·Wl + h·Wr + b, 0).  The network is three such layers, of widths
  64 → 64 → 32 → 16, followed by the linear head 16 → 1, all over the same edge table.
-/
import proofs.«157100_j89876485636273_1_alg».proof.Proof.LibSageDense
import proofs.«157100_j89876485636273_1_alg».proof.Proof.Aggregate

noncomputable section

namespace Cert.SageNet

open Idealize.ShloMosaic

/-- One layer: the dense step applied to the aggregate of h and to h. -/
def sage {K N : Nat} (A : AggDims K) (h : FVec Ideal ⟨2, ![100000, K]⟩ .f32) (src dst : IVec ⟨1, ![3200000]⟩ 32)
    (Wl Wr : FVec Ideal ⟨2, ![K, N]⟩ .f32) (b : FVec Ideal ⟨1, ![N]⟩ .f32) : FVec Ideal ⟨2, ![100000, N]⟩ .f32 :=
  layer (meanAgg A h src dst) h Wl Wr b

/-- The network: three layers and the head. -/
def net (A64 : AggDims 64) (A32 : AggDims 32) (x : FVec Ideal ⟨2, ![100000, 64]⟩ .f32) (src dst : IVec ⟨1, ![3200000]⟩ 32)
    (Wl0 Wr0 : FVec Ideal ⟨2, ![64, 64]⟩ .f32) (b0 : FVec Ideal ⟨1, ![64]⟩ .f32)
    (Wl1 Wr1 : FVec Ideal ⟨2, ![64, 32]⟩ .f32) (b1 : FVec Ideal ⟨1, ![32]⟩ .f32)
    (Wl2 Wr2 : FVec Ideal ⟨2, ![32, 16]⟩ .f32) (b2 : FVec Ideal ⟨1, ![16]⟩ .f32)
    (Wc : FVec Ideal ⟨2, ![16, 1]⟩ .f32) (bc : FVec Ideal ⟨1, ![1]⟩ .f32) : FVec Ideal ⟨2, ![100000, 1]⟩ .f32 :=
  head (sage A32 (sage A64 (sage A64 x src dst Wl0 Wr0 b0) src dst Wl1 Wr1 b1) src dst Wl2 Wr2 b2) Wc bc

end Cert.SageNet

end
-- ==== Proof.KernelValue.lean ====
/-
  THE KERNEL COMPUTES THE NETWORK.

  The buffers' contents at the program's boundaries are a fold through it. Walking that fold from the launch memory:
  the first host stretch cuts the two rows out of the edge table, forms the aggregate of the node features and re-lays the
  first bias as a row; the first region leaves the first hidden layer in its result array; the next stretch forms the
  aggregate of that layer, reusing the two edge rows, and re-lays the next bias; and so on through three layers and the
  head. A buffer no operation of a stretch writes, and no region writes back, keeps its contents across it. So the result
  buffer ends holding the network function of the launch memory's arguments.
-/
import proofs.«157100_j89876485636273_1_alg».proof.Proof.Gen.KernelIdeal.Frame
import proofs.«157100_j89876485636273_1_alg».proof.Proof.Region0
import proofs.«157100_j89876485636273_1_alg».proof.Proof.Region1
import proofs.«157100_j89876485636273_1_alg».proof.Proof.Region2
import proofs.«157100_j89876485636273_1_alg».proof.Proof.Region3
import proofs.«157100_j89876485636273_1_alg».proof.Proof.Network
import Idealize.ShloMosaic.Lib.StableHlo.Run
import Idealize.ShloMosaic.Lib.ValueLayout

set_option maxRecDepth 16384

noncomputable section

namespace Cert.KernelIdeal.Net

open Cert.KernelIdeal Cert.KernelIdeal.Gen Cert.SageNet
open Idealize.ShloMosaic Idealize.ShloMosaic.TcCoe Idealize.SL.Sem Idealize.ShloMosaic.ValueIdx Idealize.ShloMosaic.StableHlo

/-- The kernel program's records of an aggregate over 64 features, and over 32. -/
def agg64 : AggDims 64 :=
  ⟨gather_S100000x64_S3200000x1_S3200000x64_1_0_n_n_0_1_164, scatter_S100000x64_S3200000x1_S3200000x64_1_0_0_1,
    scatter_S100000_S3200000x1_S3200000_n_0_0_1, bcast_S_S100000x64, bcast_S3200000_S3200000x1_0, bcast_S_S3200000, bcast_S_S100000,
    bcast_S100000_S100000x1_0, bcast_S100000x1_S100000x64_0_1⟩
def agg32 : AggDims 32 :=
  ⟨gather_S100000x32_S3200000x1_S3200000x32_1_0_n_n_0_1_132, scatter_S100000x32_S3200000x1_S3200000x32_1_0_0_1,
    scatter_S100000_S3200000x1_S3200000_n_0_0_1, bcast_S_S100000x32, bcast_S3200000_S3200000x1_0, bcast_S_S3200000, bcast_S_S100000,
    bcast_S100000_S100000x1_0, bcast_S100000x1_S100000x32_0_1⟩

/-- No operation of a host stretch writes the buffer: decided operation by operation. -/
macro "not_written" : tactic =>
  `(tactic| (refine List.forall_iff_forall_mem.mp ?_
             simp only [hostOps0, hostOps1, hostOps2, hostOps3, List.Forall, StableHlo.nullary_writes, StableHlo.unary_writes,
               StableHlo.binary_writes, StableHlo.ternary_writes, StableHlo.quaternary_writes, StableHlo.reshape_writes,
               StableHlo.binaryIndexed_writes, Finset.mem_singleton]
             repeat' apply And.intro
             all_goals exact StableHlo.devRef_ne_of_ne (by decide)))

variable (m : (ℓ : Loc nD τ sig) → Buf (Elt Ideal) ℓ) (ρ : Dev nD → PrngReg) (c : Dev nD)

/-- The two rows of the edge table. -/
abbrev src : IVec ⟨1, ![3200000]⟩ 32 :=
  edgeRow 0 slices_S2x3200000_S1x3200000_0_0 shapeCasts_S1x3200000_S3200000 (m ((c : Thread nD τ).loc main_arg1))
abbrev dst : IVec ⟨1, ![3200000]⟩ 32 :=
  edgeRow 1 slices_S2x3200000_S1x3200000_1_0 shapeCasts_S1x3200000_S3200000 (m ((c : Thread nD τ).loc main_arg1))

/-- The three hidden layers of the launch memory's arguments. -/
abbrev hid1 : FVec Ideal ⟨2, ![100000, 64]⟩ .f32 :=
  sage agg64 (m ((c : Thread nD τ).loc main_arg0)) (src m c) (dst m c) (m ((c : Thread nD τ).loc main_arg2)) (m ((c : Thread nD τ).loc main_arg3)) (m ((c : Thread nD τ).loc main_arg4))
abbrev hid2 : FVec Ideal ⟨2, ![100000, 32]⟩ .f32 :=
  sage agg64 (hid1 m c) (src m c) (dst m c) (m ((c : Thread nD τ).loc main_arg5)) (m ((c : Thread nD τ).loc main_arg6)) (m ((c : Thread nD τ).loc main_arg7))
abbrev hid3 : FVec Ideal ⟨2, ![100000, 16]⟩ .f32 :=
  sage agg32 (hid2 m c) (src m c) (dst m c) (m ((c : Thread nD τ).loc main_arg8)) (m ((c : Thread nD τ).loc main_arg9)) (m ((c : Thread nD τ).loc main_arg10))

/-- The network of the launch memory's arguments. -/
abbrev value : FVec Ideal ⟨2, ![100000, 1]⟩ .f32 :=
  net agg64 agg32 (m ((c : Thread nD τ).loc main_arg0)) (src m c) (dst m c)
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11)) (m ((c : Thread nD τ).loc main_arg12))

/-! ## Arguments and edge rows, carried to where they are read -/

/-- An argument no stretch writes and no earlier region holds, at the first boundary. -/
theorem W1_arg0 : W1 m ρ c (Proc.devRef .tc main_arg0) = (m ((c : Thread nD τ).loc main_arg0)) :=
  (StableHlo.after_of_forall_not_mem (b := (Proc.devRef .tc main_arg0)) _ _ (by not_written))
theorem W1_arg2 : W1 m ρ c (Proc.devRef .tc main_arg2) = (m ((c : Thread nD τ).loc main_arg2)) :=
  (StableHlo.after_of_forall_not_mem (b := (Proc.devRef .tc main_arg2)) _ _ (by not_written))
theorem W1_arg3 : W1 m ρ c (Proc.devRef .tc main_arg3) = (m ((c : Thread nD τ).loc main_arg3)) :=
  (StableHlo.after_of_forall_not_mem (b := (Proc.devRef .tc main_arg3)) _ _ (by not_written))
theorem W1_arg5 : W1 m ρ c (Proc.devRef .tc main_arg5) = (m ((c : Thread nD τ).loc main_arg5)) :=
  (StableHlo.after_of_forall_not_mem (b := (Proc.devRef .tc main_arg5)) _ _ (by not_written))
theorem W1_arg6 : W1 m ρ c (Proc.devRef .tc main_arg6) = (m ((c : Thread nD τ).loc main_arg6)) :=
  (StableHlo.after_of_forall_not_mem (b := (Proc.devRef .tc main_arg6)) _ _ (by not_written))
theorem W1_arg7 : W1 m ρ c (Proc.devRef .tc main_arg7) = (m ((c : Thread nD τ).loc main_arg7)) :=
  (StableHlo.after_of_forall_not_mem (b := (Proc.devRef .tc main_arg7)) _ _ (by not_written))
theorem W1_arg8 : W1 m ρ c (Proc.devRef .tc main_arg8) = (m ((c : Thread nD τ).loc main_arg8)) :=
  (StableHlo.after_of_forall_not_mem (b := (Proc.devRef .tc main_arg8)) _ _ (by not_written))
theorem W1_arg9 : W1 m ρ c (Proc.devRef .tc main_arg9) = (m ((c : Thread nD τ).loc main_arg9)) :=
  (StableHlo.after_of_forall_not_mem (b := (Proc.devRef .tc main_arg9)) _ _ (by not_written))
theorem W1_arg10 : W1 m ρ c (Proc.devRef .tc main_arg10) = (m ((c : Thread nD τ).loc main_arg10)) :=
  (StableHlo.after_of_forall_not_mem (b := (Proc.devRef .tc main_arg10)) _ _ (by not_written))
theorem W1_arg11 : W1 m ρ c (Proc.devRef .tc main_arg11) = (m ((c : Thread nD τ).loc main_arg11)) :=
  (StableHlo.after_of_forall_not_mem (b := (Proc.devRef .tc main_arg11)) _ _ (by not_written))
theorem W1_arg12 : W1 m ρ c (Proc.devRef .tc main_arg12) = (m ((c : Thread nD τ).loc main_arg12)) :=
  (StableHlo.after_of_forall_not_mem (b := (Proc.devRef .tc main_arg12)) _ _ (by not_written))

/-- The first stretch's fresh buffers: the two edge rows, the aggregate of the node features, the first bias as a row. -/
theorem W1_v1 : W1 m ρ c (Proc.devRef .tc main_v1) = src m c := by
  show StableHlo.after hostOps0 (W0 m ρ c) (Proc.devRef .tc main_v1) = _
  after_results_simp
  rfl
theorem W1_v3 : W1 m ρ c (Proc.devRef .tc main_v3) = dst m c := by
  show StableHlo.after hostOps0 (W0 m ρ c) (Proc.devRef .tc main_v3) = _
  after_results_simp
  rfl
theorem W1_v22 : W1 m ρ c (Proc.devRef .tc main_v22) = meanAgg (F := Ideal) agg64 (m ((c : Thread nD τ).loc main_arg0)) (src m c) (dst m c) := by
  show StableHlo.after hostOps0 (W0 m ρ c) (Proc.devRef .tc main_v22) = _
  after_results_simp
  rfl
theorem W1_v23 : W1 m ρ c (Proc.devRef .tc main_v23) = shapeCast S1x64 (m ((c : Thread nD τ).loc main_arg4)) shapeCasts_S64_S1x64 := by
  show StableHlo.after hostOps0 (W0 m ρ c) (Proc.devRef .tc main_v23) = _
  after_results_simp
  rfl

/-- Across region 0: buffers that are none of its arrays. -/
theorem W2_v1 : W2 m ρ c (Proc.devRef .tc main_v1) = W1 m ρ c (Proc.devRef .tc main_v1) := W2_of_ne m ρ c main_v1 (by decide)
theorem W2_v3 : W2 m ρ c (Proc.devRef .tc main_v3) = W1 m ρ c (Proc.devRef .tc main_v3) := W2_of_ne m ρ c main_v3 (by decide)
theorem W2_arg5 : W2 m ρ c (Proc.devRef .tc main_arg5) = W1 m ρ c (Proc.devRef .tc main_arg5) := W2_of_ne m ρ c main_arg5 (by decide)
theorem W2_arg6 : W2 m ρ c (Proc.devRef .tc main_arg6) = W1 m ρ c (Proc.devRef .tc main_arg6) := W2_of_ne m ρ c main_arg6 (by decide)
theorem W2_arg7 : W2 m ρ c (Proc.devRef .tc main_arg7) = W1 m ρ c (Proc.devRef .tc main_arg7) := W2_of_ne m ρ c main_arg7 (by decide)
theorem W2_arg8 : W2 m ρ c (Proc.devRef .tc main_arg8) = W1 m ρ c (Proc.devRef .tc main_arg8) := W2_of_ne m ρ c main_arg8 (by decide)
theorem W2_arg9 : W2 m ρ c (Proc.devRef .tc main_arg9) = W1 m ρ c (Proc.devRef .tc main_arg9) := W2_of_ne m ρ c main_arg9 (by decide)
theorem W2_arg10 : W2 m ρ c (Proc.devRef .tc main_arg10) = W1 m ρ c (Proc.devRef .tc main_arg10) := W2_of_ne m ρ c main_arg10 (by decide)
theorem W2_arg11 : W2 m ρ c (Proc.devRef .tc main_arg11) = W1 m ρ c (Proc.devRef .tc main_arg11) := W2_of_ne m ρ c main_arg11 (by decide)
theorem W2_arg12 : W2 m ρ c (Proc.devRef .tc main_arg12) = W1 m ρ c (Proc.devRef .tc main_arg12) := W2_of_ne m ρ c main_arg12 (by decide)

/-- THE FIRST HIDDEN LAYER is in region 0's result array. -/
theorem W2_v24 : W2 m ρ c (Proc.devRef .tc main_v24) = hid1 m c := by
  refine (W2_arr m ρ c 5).trans ?_
  refine (Region0.final (V1 m ρ) (m ((c : Thread nD τ).loc main_arg4)) c ?_).trans ?_
  · intro q
    show (W1 m ρ c (Proc.devRef .tc main_v23) : S1x64.Idx → EReal) (ix2 (0 : Fin 1) q) = _
    rw [W1_v23]
    exact shapeCast_a_1a_apply _ _ (0 : Fin 1) q
  · show layer (M := 100000) (K := 64) (N := 64) (W1 m ρ c (Proc.devRef .tc main_v22)) (W1 m ρ c (Proc.devRef .tc main_arg0))
        (W1 m ρ c (Proc.devRef .tc main_arg2)) (W1 m ρ c (Proc.devRef .tc main_arg3)) (m ((c : Thread nD τ).loc main_arg4)) = _
    rw [W1_v22, W1_arg0, W1_arg2, W1_arg3]
    rfl

/-! ## The second stretch and region 1 -/

theorem W3_v24 : W3 m ρ c (Proc.devRef .tc main_v24) = W2 m ρ c (Proc.devRef .tc main_v24) :=
  (StableHlo.after_of_forall_not_mem (b := (Proc.devRef .tc main_v24)) _ _ (by not_written))
theorem W3_v1 : W3 m ρ c (Proc.devRef .tc main_v1) = W2 m ρ c (Proc.devRef .tc main_v1) :=
  (StableHlo.after_of_forall_not_mem (b := (Proc.devRef .tc main_v1)) _ _ (by not_written))
theorem W3_v3 : W3 m ρ c (Proc.devRef .tc main_v3) = W2 m ρ c (Proc.devRef .tc main_v3) :=
  (StableHlo.after_of_forall_not_mem (b := (Proc.devRef .tc main_v3)) _ _ (by not_written))
theorem W3_arg5 : W3 m ρ c (Proc.devRef .tc main_arg5) = W2 m ρ c (Proc.devRef .tc main_arg5) :=
  (StableHlo.after_of_forall_not_mem (b := (Proc.devRef .tc main_arg5)) _ _ (by not_written))
theorem W3_arg6 : W3 m ρ c (Proc.devRef .tc main_arg6) = W2 m ρ c (Proc.devRef .tc main_arg6) :=
  (StableHlo.after_of_forall_not_mem (b := (Proc.devRef .tc main_arg6)) _ _ (by not_written))
theorem W3_arg8 : W3 m ρ c (Proc.devRef .tc main_arg8) = W2 m ρ c (Proc.devRef .tc main_arg8) :=
  (StableHlo.after_of_forall_not_mem (b := (Proc.devRef .tc main_arg8)) _ _ (by not_written))
theorem W3_arg9 : W3 m ρ c (Proc.devRef .tc main_arg9) = W2 m ρ c (Proc.devRef .tc main_arg9) :=
  (StableHlo.after_of_forall_not_mem (b := (Proc.devRef .tc main_arg9)) _ _ (by not_written))
theorem W3_arg10 : W3 m ρ c (Proc.devRef .tc main_arg10) = W2 m ρ c (Proc.devRef .tc main_arg10) :=
  (StableHlo.after_of_forall_not_mem (b := (Proc.devRef .tc main_arg10)) _ _ (by not_written))
theorem W3_arg11 : W3 m ρ c (Proc.devRef .tc main_arg11) = W2 m ρ c (Proc.devRef .tc main_arg11) :=
  (StableHlo.after_of_forall_not_mem (b := (Proc.devRef .tc main_arg11)) _ _ (by not_written))
theorem W3_arg12 : W3 m ρ c (Proc.devRef .tc main_arg12) = W2 m ρ c (Proc.devRef .tc main_arg12) :=
  (StableHlo.after_of_forall_not_mem (b := (Proc.devRef .tc main_arg12)) _ _ (by not_written))

theorem W3_v43 : W3 m ρ c (Proc.devRef .tc main_v43) = meanAgg (F := Ideal) agg64 (W2 m ρ c (Proc.devRef .tc main_v24)) (W2 m ρ c (Proc.devRef .tc main_v1)) (W2 m ρ c (Proc.devRef .tc main_v3)) := by
  show StableHlo.after hostOps1 (W2 m ρ c) (Proc.devRef .tc main_v43) = _
  after_results_simp
  rfl
theorem W3_v44 : W3 m ρ c (Proc.devRef .tc main_v44) = shapeCast S1x32 (W2 m ρ c (Proc.devRef .tc main_arg7)) shapeCasts_S32_S1x32 := by
  show StableHlo.after hostOps1 (W2 m ρ c) (Proc.devRef .tc main_v44) = _
  after_results_simp
  rfl

theorem W4_v1 : W4 m ρ c (Proc.devRef .tc main_v1) = W3 m ρ c (Proc.devRef .tc main_v1) := W4_of_ne m ρ c main_v1 (by decide)
theorem W4_v3 : W4 m ρ c (Proc.devRef .tc main_v3) = W3 m ρ c (Proc.devRef .tc main_v3) := W4_of_ne m ρ c main_v3 (by decide)
theorem W4_arg8 : W4 m ρ c (Proc.devRef .tc main_arg8) = W3 m ρ c (Proc.devRef .tc main_arg8) := W4_of_ne m ρ c main_arg8 (by decide)
theorem W4_arg9 : W4 m ρ c (Proc.devRef .tc main_arg9) = W3 m ρ c (Proc.devRef .tc main_arg9) := W4_of_ne m ρ c main_arg9 (by decide)
theorem W4_arg10 : W4 m ρ c (Proc.devRef .tc main_arg10) = W3 m ρ c (Proc.devRef .tc main_arg10) := W4_of_ne m ρ c main_arg10 (by decide)
theorem W4_arg11 : W4 m ρ c (Proc.devRef .tc main_arg11) = W3 m ρ c (Proc.devRef .tc main_arg11) := W4_of_ne m ρ c main_arg11 (by decide)
theorem W4_arg12 : W4 m ρ c (Proc.devRef .tc main_arg12) = W3 m ρ c (Proc.devRef .tc main_arg12) := W4_of_ne m ρ c main_arg12 (by decide)

/-- THE SECOND HIDDEN LAYER is in region 1's result array. -/
theorem W4_v45 : W4 m ρ c (Proc.devRef .tc main_v45) = hid2 m c := by
  refine (W4_arr m ρ c 5).trans ?_
  refine (Region1.final (V3 m ρ) (m ((c : Thread nD τ).loc main_arg7)) c ?_).trans ?_
  · intro q
    show (W3 m ρ c (Proc.devRef .tc main_v44) : S1x32.Idx → EReal) (ix2 (0 : Fin 1) q) = _
    rw [W3_v44, W2_arg7, W1_arg7]
    exact shapeCast_a_1a_apply _ _ (0 : Fin 1) q
  · show layer (M := 100000) (K := 64) (N := 32) (W3 m ρ c (Proc.devRef .tc main_v43)) (W3 m ρ c (Proc.devRef .tc main_v24))
        (W3 m ρ c (Proc.devRef .tc main_arg5)) (W3 m ρ c (Proc.devRef .tc main_arg6)) (m ((c : Thread nD τ).loc main_arg7)) = _
    rw [W3_v43, W3_v24, W3_arg5, W3_arg6, W2_v24, W2_v1, W2_v3, W2_arg5, W2_arg6, W1_v1, W1_v3, W1_arg5, W1_arg6]
    rfl

/-! ## The third stretch and region 2 -/

theorem W5_v45 : W5 m ρ c (Proc.devRef .tc main_v45) = W4 m ρ c (Proc.devRef .tc main_v45) :=
  (StableHlo.after_of_forall_not_mem (b := (Proc.devRef .tc main_v45)) _ _ (by not_written))
theorem W5_v1 : W5 m ρ c (Proc.devRef .tc main_v1) = W4 m ρ c (Proc.devRef .tc main_v1) :=
  (StableHlo.after_of_forall_not_mem (b := (Proc.devRef .tc main_v1)) _ _ (by not_written))
theorem W5_v3 : W5 m ρ c (Proc.devRef .tc main_v3) = W4 m ρ c (Proc.devRef .tc main_v3) :=
  (StableHlo.after_of_forall_not_mem (b := (Proc.devRef .tc main_v3)) _ _ (by not_written))
theorem W5_arg8 : W5 m ρ c (Proc.devRef .tc main_arg8) = W4 m ρ c (Proc.devRef .tc main_arg8) :=
  (StableHlo.after_of_forall_not_mem (b := (Proc.devRef .tc main_arg8)) _ _ (by not_written))
theorem W5_arg9 : W5 m ρ c (Proc.devRef .tc main_arg9) = W4 m ρ c (Proc.devRef .tc main_arg9) :=
  (StableHlo.after_of_forall_not_mem (b := (Proc.devRef .tc main_arg9)) _ _ (by not_written))
theorem W5_arg11 : W5 m ρ c (Proc.devRef .tc main_arg11) = W4 m ρ c (Proc.devRef .tc main_arg11) :=
  (StableHlo.after_of_forall_not_mem (b := (Proc.devRef .tc main_arg11)) _ _ (by not_written))
theorem W5_arg12 : W5 m ρ c (Proc.devRef .tc main_arg12) = W4 m ρ c (Proc.devRef .tc main_arg12) :=
  (StableHlo.after_of_forall_not_mem (b := (Proc.devRef .tc main_arg12)) _ _ (by not_written))

theorem W5_v64 : W5 m ρ c (Proc.devRef .tc main_v64) = meanAgg (F := Ideal) agg32 (W4 m ρ c (Proc.devRef .tc main_v45)) (W4 m ρ c (Proc.devRef .tc main_v1)) (W4 m ρ c (Proc.devRef .tc main_v3)) := by
  show StableHlo.after hostOps2 (W4 m ρ c) (Proc.devRef .tc main_v64) = _
  after_results_simp
  rfl
theorem W5_v65 : W5 m ρ c (Proc.devRef .tc main_v65) = shapeCast S1x16 (W4 m ρ c (Proc.devRef .tc main_arg10)) shapeCasts_S16_S1x16 := by
  show StableHlo.after hostOps2 (W4 m ρ c) (Proc.devRef .tc main_v65) = _
  after_results_simp
  rfl

theorem W6_arg11 : W6 m ρ c (Proc.devRef .tc main_arg11) = W5 m ρ c (Proc.devRef .tc main_arg11) := W6_of_ne m ρ c main_arg11 (by decide)
theorem W6_arg12 : W6 m ρ c (Proc.devRef .tc main_arg12) = W5 m ρ c (Proc.devRef .tc main_arg12) := W6_of_ne m ρ c main_arg12 (by decide)

/-- THE THIRD HIDDEN LAYER is in region 2's result array. -/
theorem W6_v66 : W6 m ρ c (Proc.devRef .tc main_v66) = hid3 m c := by
  refine (W6_arr m ρ c 5).trans ?_
  refine (Region2.final (V5 m ρ) (m ((c : Thread nD τ).loc main_arg10)) c ?_).trans ?_
  · intro q
    show (W5 m ρ c (Proc.devRef .tc main_v65) : S1x16.Idx → EReal) (ix2 (0 : Fin 1) q) = _
    rw [W5_v65, W4_arg10, W3_arg10, W2_arg10, W1_arg10]
    exact shapeCast_a_1a_apply _ _ (0 : Fin 1) q
  · show layer (M := 100000) (K := 32) (N := 16) (W5 m ρ c (Proc.devRef .tc main_v64)) (W5 m ρ c (Proc.devRef .tc main_v45))
        (W5 m ρ c (Proc.devRef .tc main_arg8)) (W5 m ρ c (Proc.devRef .tc main_arg9)) (m ((c : Thread nD τ).loc main_arg10)) = _
    rw [W5_v64, W5_v45, W5_arg8, W5_arg9, W4_v45, W4_v1, W4_v3, W4_arg8, W4_arg9, W3_v1, W3_v3, W3_arg8, W3_arg9,
      W2_v1, W2_v3, W2_arg8, W2_arg9, W1_v1, W1_v3, W1_arg8, W1_arg9]
    rfl

/-! ## The last stretch and the head -/

theorem W7_v66 : W7 m ρ c (Proc.devRef .tc main_v66) = W6 m ρ c (Proc.devRef .tc main_v66) :=
  (StableHlo.after_of_forall_not_mem (b := (Proc.devRef .tc main_v66)) _ _ (by not_written))
theorem W7_arg11 : W7 m ρ c (Proc.devRef .tc main_arg11) = W6 m ρ c (Proc.devRef .tc main_arg11) :=
  (StableHlo.after_of_forall_not_mem (b := (Proc.devRef .tc main_arg11)) _ _ (by not_written))

theorem W7_v67 : W7 m ρ c (Proc.devRef .tc main_v67) = shapeCast S1x1 (W6 m ρ c (Proc.devRef .tc main_arg12)) shapeCasts_S1_S1x1 := by
  show StableHlo.after hostOps3 (W6 m ρ c) (Proc.devRef .tc main_v67) = _
  after_results
  rfl

/-- THE RESULT BUFFER ends holding the network of the launch memory's arguments. -/
theorem W8_v68 : W8 m ρ c (Proc.devRef .tc main_v68) = value m c := by
  refine (W8_arr m ρ c 3).trans ?_
  refine (Region3.final (V7 m ρ) (m ((c : Thread nD τ).loc main_arg12)) c ?_).trans ?_
  · intro q
    show (W7 m ρ c (Proc.devRef .tc main_v67) : S1x1.Idx → EReal) (ix2 (0 : Fin 1) q) = _
    rw [W7_v67, W6_arg12, W5_arg12, W4_arg12, W3_arg12, W2_arg12, W1_arg12]
    exact shapeCast_a_1a_apply _ _ (0 : Fin 1) q
  · show head (M := 100000) (K := 16) (N := 1) (W7 m ρ c (Proc.devRef .tc main_v66)) (W7 m ρ c (Proc.devRef .tc main_arg11)) (m ((c : Thread nD τ).loc main_arg12)) = _
    rw [W7_v66, W7_arg11, W6_v66, W6_arg11, W5_arg11, W4_arg11, W3_arg11, W2_arg11, W1_arg11]
    rfl

end Cert.KernelIdeal.Net

end
-- ==== Proof.RefValue.lean ====
/-
  THE REFERENCE PROGRAM COMPUTES THE NETWORK.

  The reference's result is one long term of its arguments: per layer the aggregate, two dots, an addition, the bias
  broadcast in two steps and added, the maximum with a broadcast zero; then the head's dot and bias. Folding the aggregate
  and each layer's host spelling back into their names shows that term to be the network function, and the host spelling of
  a layer is the layer entry by entry.
-/
import proofs.«157100_j89876485636273_1_alg».proof.Proof.Gen.ReferenceIdeal.Run
import proofs.«157100_j89876485636273_1_alg».proof.Proof.Network

set_option maxRecDepth 16384

noncomputable section

namespace Cert.ReferenceIdeal.Net

open Cert.ReferenceIdeal Cert.ReferenceIdeal.Gen Cert.ReferenceIdeal.Value Cert.SageNet
open Idealize.ShloMosaic Idealize.ShloMosaic.TcCoe Idealize.SL.Sem

/-- The reference's records of an aggregate over 64 features, and over 32. -/
def agg64 : AggDims 64 :=
  ⟨gather_S100000x64_S3200000x1_S3200000x64_1_0_n_n_0_1_164, scatter_S100000x64_S3200000x1_S3200000x64_1_0_0_1,
    scatter_S100000_S3200000x1_S3200000_n_0_0_1, bcast_S_S100000x64, bcast_S3200000_S3200000x1_0, bcast_S_S3200000, bcast_S_S100000,
    bcast_S100000_S100000x1_0, bcast_S100000x1_S100000x64_0_1⟩
def agg32 : AggDims 32 :=
  ⟨gather_S100000x32_S3200000x1_S3200000x32_1_0_n_n_0_1_132, scatter_S100000x32_S3200000x1_S3200000x32_1_0_0_1,
    scatter_S100000_S3200000x1_S3200000_n_0_0_1, bcast_S_S100000x32, bcast_S3200000_S3200000x1_0, bcast_S_S3200000, bcast_S_S100000,
    bcast_S100000_S100000x1_0, bcast_S100000x1_S100000x32_0_1⟩

/-- One layer in the host program's spelling. -/
def hostSage {K N : Nat} (d : DotDims ⟨2, ![100000, K]⟩ ⟨2, ![K, N]⟩ ⟨2, ![100000, N]⟩)
    (h1 : (⟨1, ![N]⟩ : Shape).BroadcastsInDim ⟨2, ![1, N]⟩ ![1])
    (h2 : (⟨2, ![1, N]⟩ : Shape).BroadcastsInDim ⟨2, ![100000, N]⟩ ![0, 1])
    (h0 : (⟨0, ![]⟩ : Shape).BroadcastsInDim ⟨2, ![100000, N]⟩ ![])
    (A : AggDims K) (h : FVec Ideal ⟨2, ![100000, K]⟩ .f32) (src dst : IVec ⟨1, ![3200000]⟩ 32)
    (Wl Wr : FVec Ideal ⟨2, ![K, N]⟩ .f32) (b : FVec Ideal ⟨1, ![N]⟩ .f32) : FVec Ideal ⟨2, ![100000, N]⟩ .f32 :=
  maximumf
    (addf (addf (Host.dotGeneral d none (meanAgg A h src dst) Wl) (Host.dotGeneral d none h Wr))
      (broadcastInDim ⟨2, ![100000, N]⟩ ![0, 1] h2 (broadcastInDim ⟨2, ![1, N]⟩ ![1] h1 b)))
    (broadcastInDim ⟨2, ![100000, N]⟩ ![] h0 (constant (F := Ideal) ⟨0, ![]⟩ .f32 0x00000000#32))

/-- The host spelling of a layer is the layer. -/
theorem hostSage_eq {K N : Nat} (d : DotDims ⟨2, ![100000, K]⟩ ⟨2, ![K, N]⟩ ⟨2, ![100000, N]⟩)
    (hl : d.lhsContracting = [1]) (hr : d.rhsContracting = [0]) (hln : d.lhsNonContracting = [0])
    (hrn : d.rhsNonContracting = [1]) (hlb : d.lhsBatch = []) (hrb : d.rhsBatch = [])
    (h1 : (⟨1, ![N]⟩ : Shape).BroadcastsInDim ⟨2, ![1, N]⟩ ![1])
    (h2 : (⟨2, ![1, N]⟩ : Shape).BroadcastsInDim ⟨2, ![100000, N]⟩ ![0, 1])
    (h0 : (⟨0, ![]⟩ : Shape).BroadcastsInDim ⟨2, ![100000, N]⟩ ![])
    (A : AggDims K) (h : FVec Ideal ⟨2, ![100000, K]⟩ .f32) (src dst : IVec ⟨1, ![3200000]⟩ 32)
    (Wl Wr : FVec Ideal ⟨2, ![K, N]⟩ .f32) (b : FVec Ideal ⟨1, ![N]⟩ .f32) :
    hostSage d h1 h2 h0 A h src dst Wl Wr b = sage A h src dst Wl Wr b :=
  host_layer_eq d hl hr hln hrn hlb hrb h1 h2 h0 (meanAgg A h src dst) h Wl Wr b

variable (m : (ℓ : Loc nD τ sig) → Buf (Elt Ideal) ℓ) (c : Dev nD)

/-- The two rows of the edge table the reference cuts out. -/
abbrev src : IVec ⟨1, ![3200000]⟩ 32 :=
  edgeRow 0 slices_S2x3200000_S1x3200000_0_0 shapeCasts_S1x3200000_S3200000 (m ((c.tc : Thread nD τ).loc main_arg1))
abbrev dst : IVec ⟨1, ![3200000]⟩ 32 :=
  edgeRow 1 slices_S2x3200000_S1x3200000_1_0 shapeCasts_S1x3200000_S3200000 (m ((c.tc : Thread nD τ).loc main_arg1))

/-- The network of the reference's arguments. -/
abbrev value : FVec Ideal ⟨2, ![100000, 1]⟩ .f32 :=
  net agg64 agg32 (m ((c.tc : Thread nD τ).loc main_arg0)) (src m c) (dst m c)
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9)) (m ((c.tc : Thread nD τ).loc main_arg10))
    (m ((c.tc : Thread nD τ).loc main_arg11)) (m ((c.tc : Thread nD τ).loc main_arg12))

/-- The reference's result term, with the aggregates and the layers' host spellings folded into their names. -/
theorem res_folded : res_main_v85 (F := Ideal) m c
    = addf (Host.dotGeneral (φ₁ := .f32) (φ₂ := .f32) dot_S100000x16_S16x1_S100000x1_1_0_0_1_n_n none
        (hostSage dot_S100000x32_S32x16_S100000x16_1_0_0_1_n_n bcast_S16_S1x16_1 bcast_S1x16_S100000x16_0_1 bcast_S_S100000x16 agg32
          (hostSage dot_S100000x64_S64x32_S100000x32_1_0_0_1_n_n bcast_S32_S1x32_1 bcast_S1x32_S100000x32_0_1 bcast_S_S100000x32 agg64
            (hostSage dot_S100000x64_S64x64_S100000x64_1_0_0_1_n_n bcast_S64_S1x64_1 bcast_S1x64_S100000x64_0_1 bcast_S_S100000x64 agg64
              (m ((c.tc : Thread nD τ).loc main_arg0)) (src m c) (dst m c)
              (m ((c.tc : Thread nD τ).loc main_arg2)) (m ((c.tc : Thread nD τ).loc main_arg3)) (m ((c.tc : Thread nD τ).loc main_arg4)))
            (src m c) (dst m c)
            (m ((c.tc : Thread nD τ).loc main_arg5)) (m ((c.tc : Thread nD τ).loc main_arg6)) (m ((c.tc : Thread nD τ).loc main_arg7)))
          (src m c) (dst m c)
          (m ((c.tc : Thread nD τ).loc main_arg8)) (m ((c.tc : Thread nD τ).loc main_arg9)) (m ((c.tc : Thread nD τ).loc main_arg10)))
        (m ((c.tc : Thread nD τ).loc main_arg11) : FVec Ideal S16x1 .f32))
      (broadcastInDim S100000x1 ![0, 1] bcast_S1x1_S100000x1_0_1 (broadcastInDim S1x1 ![1] bcast_S1_S1x1_1 (m ((c.tc : Thread nD τ).loc main_arg12)))) := by
  unfold res_main_v85
  rfl

/-- THE REFERENCE'S RESULT is the network of its arguments. -/
theorem res_eq : res_main_v85 (F := Ideal) m c = value m c := by
  rw [res_folded,
    hostSage_eq dot_S100000x64_S64x64_S100000x64_1_0_0_1_n_n rfl rfl rfl rfl rfl rfl,
    hostSage_eq dot_S100000x64_S64x32_S100000x32_1_0_0_1_n_n rfl rfl rfl rfl rfl rfl,
    hostSage_eq dot_S100000x32_S32x16_S100000x16_1_0_0_1_n_n rfl rfl rfl rfl rfl rfl]
  exact host_head_eq dot_S100000x16_S16x1_S100000x1_1_0_0_1_n_n rfl rfl rfl rfl rfl rfl bcast_S1_S1x1_1 bcast_S1x1_S100000x1_0_1 _ _ _

end Cert.ReferenceIdeal.Net

end
-- ==== Proof.lean ====
/-
  The kernel and its reference compute one function.

  The kernel is a three-layer graph network with a linear head: per layer the mean of the features over each node's
  incoming edges (formed by host operations), then max(agg·Wl + h·Wr + b, 0) formed by a kernel region ten row blocks at a
  time, and the head h·Wc + bc formed by a last region. The reference forms the same aggregates by the same host operations
  and each dense step by two dots, a bias broadcast and a maximum. Over the extended reals both are the network function of
  the arguments (Proof/Network.lean): the kernel because each region's ten blocks tile its result array and each block's
  entries are the layer's entries of the whole arrays (Proof/Region0.lean … Region3.lean), walked through the program's
  boundaries (Proof/KernelValue.lean) along its run with the result named (Proof/NamedRun.lean); the reference by folding
  its result term (Proof/RefValue.lean). A product into a zero block and a dot are the same sum over the contracted axis,
  a narrowing of the float format is the identity, and the two programs group their additions the same way, so no law of
  arithmetic is needed and the precondition is never opened. The idealization rewrote nothing, so it is preserved trivially.
-/
import proofs.«157100_j89876485636273_1_alg».proof.Defs
import proofs.«157100_j89876485636273_1_alg».proof.Proof.Gen.Kernel
import proofs.«157100_j89876485636273_1_alg».proof.Proof.Gen.Kernel.Frame
import proofs.«157100_j89876485636273_1_alg».proof.Proof.Gen.KernelIdeal
import proofs.«157100_j89876485636273_1_alg».proof.Proof.Gen.KernelIdeal.Frame
import proofs.«157100_j89876485636273_1_alg».proof.Proof.Gen.ReferenceIdeal
import proofs.«157100_j89876485636273_1_alg».proof.Proof.Gen.ReferenceIdeal.Run
import proofs.«157100_j89876485636273_1_alg».proof.Proof.Gen.Pre_finite_inputs
import proofs.«157100_j89876485636273_1_alg».proof.Proof.NamedRun
import proofs.«157100_j89876485636273_1_alg».proof.Proof.KernelValue
import proofs.«157100_j89876485636273_1_alg».proof.Proof.RefValue
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The two programs describe their gathers and scatters by the same records. -/
theorem records64 : Cert.ReferenceIdeal.Net.agg64 = Cert.KernelIdeal.Net.agg64 := rfl
theorem records32 : Cert.ReferenceIdeal.Net.agg32 = Cert.KernelIdeal.Net.agg32 := rfl

/-- From memories that agree on the arguments, the reference's network value is the kernel's. -/
theorem value_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (e10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (e11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (e12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    Cert.ReferenceIdeal.Net.value m' c = Cert.KernelIdeal.Net.value m c := by
  unfold Cert.ReferenceIdeal.Net.value Cert.ReferenceIdeal.Net.src Cert.ReferenceIdeal.Net.dst Cert.KernelIdeal.Net.value Cert.KernelIdeal.Net.src Cert.KernelIdeal.Net.dst
  rw [e0, e1, e2, e3, e4, e5, e6, e7, e8, e9, e10, e11, e12, records64, records32]

theorem algebraic : Cert.algebraic_KernelIdeal_ReferenceIdeal := by
  intro m ρ m' ρ' _ hagree
  refine ⟨fun c => Cert.KernelIdeal.Net.value m c, ?_, ?_⟩
  · exact (θ_run Cert.KernelIdeal.defs _ _).mono
      (fun r h c => ⟨(h c).1.trans (Cert.KernelIdeal.Net.W8_v68 m ρ c), (h c).2⟩) (Cert.KernelIdeal.Named.run (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11, e12⟩ := hagree c
    exact (Cert.ReferenceIdeal.Net.res_eq m' c).trans (value_agree m m' c e0 e1 e2 e3 e4 e5 e6 e7 e8 e9 e10 e11 e12)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
